-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : FVec F S256x128 .f32) (main_arg2 : FVec F S256 .f32) (main_arg3 : FVec F S256x128 .f32) (main_arg4 : FVec F S128x256 .f32) (main_arg5 : FVec F S128 .f32) (main_arg6 : FVec F S128x256 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 67
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x256, .f32⟩
  | .hbm, ⟨41, _⟩ => ⟨S128x256, .bf16⟩
  | .hbm, ⟨42, _⟩ => ⟨S128x256, .f32⟩
  | .hbm, ⟨43, _⟩ => ⟨S128x256, .bf16⟩
  | .hbm, ⟨44, _⟩ => ⟨S256x128, .f32⟩
  | .hbm, ⟨45, _⟩ => ⟨S256x128, .bf16⟩
  | .hbm, ⟨46, _⟩ => ⟨S1x256, .f32⟩
  | .hbm, ⟨47, _⟩ => ⟨S50000x256, .bf16⟩
  | .hbm, ⟨48, _⟩ => ⟨S50000x128, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .bf16⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S256x128, .f32⟩
  | .hbm, ⟨64, _⟩ => ⟨S256x128, .bf16⟩
  | .hbm, ⟨65, _⟩ => ⟨S1x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S256x128, .bf16⟩
  | .local _ .vmem, ⟨9, _⟩ => ⟨S1x256, .f32⟩
  | .local _ .vmem, ⟨10, _⟩ => ⟨S2000x256, .bf16⟩
  | .local _ .vmem, ⟨11, _⟩ => ⟨S2000x256, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x256, .bf16⟩
  | .local _ .vmem, ⟨17, _⟩ => ⟨S2000x256, .bf16⟩
  | .local _ .vmem, ⟨18, _⟩ => ⟨S2000x1, .f32⟩
  | .local _ .vmem, ⟨19, _⟩ => ⟨S2000x1, .f32⟩
  | .local _ .vmem, ⟨20, _⟩ => ⟨S256x128, .bf16⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S256x128_S128x256_1_0 : S256x128.Transposes [1, 0] S128x256
  transposes_S128x256_S256x128_1_0 : S128x256.Transposes [1, 0] S256x128
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x256_S2000x256 : S2000x256.ShapeCasts S2000x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .bf16 = 32 ∨ (Rect.block (s := S50000x128) S2000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S128x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S256x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S256x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The kernel's run with its result named.

  Every weakly fair execution of the kernel's @main terminates without a fault; the final memory holds, in the result
  buffer, what the last boundary of the run's fold holds there (the second call's output array as its write-backs leave
  it), and the argument arrays as launched. This is the launch of the four segments (two stretches of host operations,
  two calls) read against the final state at the result buffer as well as at the arguments.
-/
import proofs.«180857_j84464826843467_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibSageLayer.lean ====
/-
  A mean-aggregating graph layer's dense part and a linear head, read at one entry, on the extended reals.

  `sageAt A X Wl Wr b p q = max((Σ k, A(p,k) · Wl(k,q) + Σ k, X(p,k) · Wr(k,q)) + b(q), 0)` is entry (p, q) of
  `max(A · Wl + X · Wr + b, 0)` (the aggregated neighbours `A` through the left weights, the node's own features `X`
  through the right weights, a bias along the columns, a rectifier), and `linAt H W b p q = Σ k, H(p,k) · W(k,q) + b(q)`
  is entry (p, q) of `H · W + b`. Each is reached two ways:
    * the vector unit's way — operands narrowed to bf16 (the identity on extended reals), matrix products into a zero
      accumulator, the two products added FIRST and the bias row (re-cast, repeated along the rows) added LAST,
      `maximumf` against a splat zero;
    * the host's way — `dot_general`, the bias vector placed as a row and repeated along the rows, added to the FIRST
      product BEFORE the second product is added, `maximum` against a broadcast zero.
  The two orders of the three summands agree because addition of extended reals is commutative and associative
  (`add_right_comm`): no finiteness is needed.
-/
import proofs.«180857_j84464826843467_2_alg».proof.Proof.LibHostRead
import Idealize.ShloMosaic.Lib.ValueLayout

noncomputable section

namespace Cert.LibSageLayer

open Idealize.ShloMosaic Idealize.ShloMosaic.ValueIdx Cert.LibHostRead

variable {M K N : ℕ}

/-- Entry (p, q) of `max((A · Wl + X · Wr) + b, 0)`, the bias a function of the column. -/
def sageAt (A X : (⟨2, ![M, K]⟩ : Shape).Idx → EReal) (Wl Wr : (⟨2, ![K, N]⟩ : Shape).Idx → EReal)
    (b : Fin N → EReal) (p : Fin M) (q : Fin N) : EReal :=
  max (((∑ k : Fin K, A (ix2 p k) * Wl (ix2 k q)) + ∑ k : Fin K, X (ix2 p k) * Wr (ix2 k q)) + b q) 0

/-- Entry (p, q) of `H · W + b`. -/
def linAt (H : (⟨2, ![M, K]⟩ : Shape).Idx → EReal) (W : (⟨2, ![K, N]⟩ : Shape).Idx → EReal)
    (b : Fin N → EReal) (p : Fin M) (q : Fin N) : EReal :=
  (∑ k : Fin K, H (ix2 p k) * W (ix2 k q)) + b q

/-- `max((A · Wl + X · Wr) + b, 0)` as an M × N array. -/
def sage (A X : (⟨2, ![M, K]⟩ : Shape).Idx → EReal) (Wl Wr : (⟨2, ![K, N]⟩ : Shape).Idx → EReal)
    (b : Fin N → EReal) : (⟨2, ![M, N]⟩ : Shape).Idx → EReal :=
  fun i => sageAt A X Wl Wr b ⟨(i 0).val, idx2_lt0 i⟩ ⟨(i 1).val, idx2_lt1 i⟩

/-- `H · W + b` as an M × N array. -/
def lin (H : (⟨2, ![M, K]⟩ : Shape).Idx → EReal) (W : (⟨2, ![K, N]⟩ : Shape).Idx → EReal)
    (b : Fin N → EReal) : (⟨2, ![M, N]⟩ : Shape).Idx → EReal :=
  fun i => linAt H W b ⟨(i 0).val, idx2_lt0 i⟩ ⟨(i 1).val, idx2_lt1 i⟩

theorem sage_ix2 (A X : (⟨2, ![M, K]⟩ : Shape).Idx → EReal) (Wl Wr : (⟨2, ![K, N]⟩ : Shape).Idx → EReal)
    (b : Fin N → EReal) (p : Fin M) (q : Fin N) : sage A X Wl Wr b (ix2 p q) = sageAt A X Wl Wr b p q := rfl

theorem lin_ix2 (H : (⟨2, ![M, K]⟩ : Shape).Idx → EReal) (W : (⟨2, ![K, N]⟩ : Shape).Idx → EReal)
    (b : Fin N → EReal) (p : Fin M) (q : Fin N) : lin H W b (ix2 p q) = linAt H W b p q := rfl

/-! ## The vector unit's way -/

/-- The vector unit's two-product rectified layer at an entry: the bias is the one row of `B`. -/
theorem vec_sage_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (a x : FVec Ideal ⟨2, ![M, K]⟩ .f32) (wl wr : FVec Ideal ⟨2, ![K, N]⟩ .f32) (B : FVec Ideal ⟨2, ![1, N]⟩ .f32) (p : Fin M) (q : Fin N) :
    maximumf (addf (addf
            (matmul d none (truncf .bf16 a hn) (truncf .bf16 wl hn) (constant ⟨2, ![M, N]⟩ .f32 0x00000000#32))
            (matmul d none (truncf .bf16 x hn) (truncf .bf16 wr hn) (constant ⟨2, ![M, N]⟩ .f32 0x00000000#32)))
          (broadcastTo ⟨2, ![M, N]⟩ (shapeCast ⟨2, ![1, N]⟩ B hs) hbt))
        (broadcast ⟨2, ![M, N]⟩ (Scalar.ofBits (F := Ideal) .f32 0x00000000#32)) (ix2 p q)
      = sageAt a x wl wr (fun c => B (ix2 (0 : Fin 1) c)) p q := by
  rw [maximumf_apply, addf_apply, addf_apply, broadcast_apply, shapeCast_self, broadcastTo_1b_ab_apply]
  show max ((FloatOps.matmul d none (truncf .bf16 a hn) (truncf .bf16 wl hn) (constant ⟨2, ![M, N]⟩ .f32 0x00000000#32) (ix2 p q)
        + FloatOps.matmul d none (truncf .bf16 x hn) (truncf .bf16 wr hn) (constant ⟨2, ![M, N]⟩ .f32 0x00000000#32) (ix2 p q)) + _)
      (Ideal.ofBits .f32 0x00000000#32) = _
  rw [matmul_plain_zero_apply d hd, matmul_plain_zero_apply d hd, Ideal.ofBits_zero_f32]
  rfl

/-- The vector unit's affine head at an entry. -/
theorem vec_lin_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (h : FVec Ideal ⟨2, ![M, K]⟩ .f32) (w : FVec Ideal ⟨2, ![K, N]⟩ .f32) (B : FVec Ideal ⟨2, ![1, N]⟩ .f32) (p : Fin M) (q : Fin N) :
    addf (matmul d none (truncf .bf16 h hn) (truncf .bf16 w hn) (constant ⟨2, ![M, N]⟩ .f32 0x00000000#32))
          (broadcastTo ⟨2, ![M, N]⟩ (shapeCast ⟨2, ![1, N]⟩ B hs) hbt) (ix2 p q)
      = linAt h w (fun c => B (ix2 (0 : Fin 1) c)) p q := by
  rw [addf_apply, shapeCast_self, broadcastTo_1b_ab_apply]
  show FloatOps.matmul d none (truncf .bf16 h hn) (truncf .bf16 w hn) (constant ⟨2, ![M, N]⟩ .f32 0x00000000#32) (ix2 p q) + _ = _
  rw [matmul_plain_zero_apply d hd]
  rfl

/-! ## The host's way -/

/-- The host's layer at an entry: the bias vector joins the first product before the second product is added. -/
theorem host_sage_apply (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1]) (hz : (⟨0, ![]⟩ : Shape).BroadcastsInDim ⟨2, ![M, N]⟩ ![])
    (A X : FVec Ideal ⟨2, ![M, K]⟩ .f32) (Wl Wr : FVec Ideal ⟨2, ![K, N]⟩ .f32) (b : FVec Ideal ⟨1, ![N]⟩ .f32) (p : Fin M) (q : Fin N) :
    maximumf (addf (addf (Host.dotGeneral d none A Wl)
            (broadcastInDim ⟨2, ![M, N]⟩ ![0, 1] hb2 (broadcastInDim ⟨2, ![1, N]⟩ ![1] hb1 b)))
          (Host.dotGeneral d none X Wr))
        (broadcastInDim ⟨2, ![M, N]⟩ ![] hz (constant (F := Ideal) ⟨0, ![]⟩ .f32 0x00000000#32)) (ix2 p q)
      = sageAt A X Wl Wr (fun c => b (ix1 c)) p q := by
  rw [maximumf_apply, addf_apply, addf_apply, bid_1b_ab_apply, bid_b_1b_apply, bid_scalar_apply, constant_apply, Ideal.ofBits_zero_f32]
  show max ((FloatOps.dotGeneral d none .single A Wl (ix2 p q) + _) + FloatOps.dotGeneral d none .single X Wr (ix2 p q)) 0 = _
  rw [dotGeneral_plain_apply d hd, dotGeneral_plain_apply d hd]
  unfold sageAt
  rw [add_right_comm]

/-- The host's layer is the array `sage`. -/
theorem host_sage_eq (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1]) (hz : (⟨0, ![]⟩ : Shape).BroadcastsInDim ⟨2, ![M, N]⟩ ![])
    (A X : FVec Ideal ⟨2, ![M, K]⟩ .f32) (Wl Wr : FVec Ideal ⟨2, ![K, N]⟩ .f32) (b : FVec Ideal ⟨1, ![N]⟩ .f32) :
    maximumf (addf (addf (Host.dotGeneral d none A Wl)
            (broadcastInDim ⟨2, ![M, N]⟩ ![0, 1] hb2 (broadcastInDim ⟨2, ![1, N]⟩ ![1] hb1 b)))
          (Host.dotGeneral d none X Wr))
        (broadcastInDim ⟨2, ![M, N]⟩ ![] hz (constant (F := Ideal) ⟨0, ![]⟩ .f32 0x00000000#32))
      = sage A X Wl Wr (fun c => b (ix1 c)) := by
  funext i
  obtain ⟨p, q, rfl⟩ : ∃ (p : Fin M) (q : Fin N), i = ix2 p q := ⟨i 0, i 1, eq_ix2 i⟩
  exact host_sage_apply d hd hb1 hb2 hz A X Wl Wr b p q

/-- The host's affine head at an entry. -/
theorem host_lin_apply (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1])
    (H : FVec Ideal ⟨2, ![M, K]⟩ .f32) (W : FVec Ideal ⟨2, ![K, N]⟩ .f32) (b : FVec Ideal ⟨1, ![N]⟩ .f32) (p : Fin M) (q : Fin N) :
    addf (Host.dotGeneral d none H W)
        (broadcastInDim ⟨2, ![M, N]⟩ ![0, 1] hb2 (broadcastInDim ⟨2, ![1, N]⟩ ![1] hb1 b)) (ix2 p q)
      = linAt H W (fun c => b (ix1 c)) p q := by
  rw [addf_apply, bid_1b_ab_apply, bid_b_1b_apply]
  show FloatOps.dotGeneral d none .single H W (ix2 p q) + _ = _
  rw [dotGeneral_plain_apply d hd]
  rfl

/-- The host's affine head is the array `lin`. -/
theorem host_lin_eq (d : DotDims ⟨2, ![M, K]⟩ ⟨2, ![K, N]⟩ ⟨2, ![M, N]⟩) (hd : PlainDot d)
    (hb1 : (⟨1, ![N]⟩ : Shape).BroadcastsInDim ⟨2, ![1, N]⟩ ![1])
    (hb2 : (⟨2, ![1, N]⟩ : Shape).BroadcastsInDim ⟨2, ![M, N]⟩ ![0, 1])
    (H : FVec Ideal ⟨2, ![M, K]⟩ .f32) (W : FVec Ideal ⟨2, ![K, N]⟩ .f32) (b : FVec Ideal ⟨1, ![N]⟩ .f32) :
    addf (Host.dotGeneral d none H W)
        (broadcastInDim ⟨2, ![M, N]⟩ ![0, 1] hb2 (broadcastInDim ⟨2, ![1, N]⟩ ![1] hb1 b))
      = lin H W (fun c => b (ix1 c)) := by
  funext i
  obtain ⟨p, q, rfl⟩ : ∃ (p : Fin M) (q : Fin N), i = ix2 p q := ⟨i 0, i 1, eq_ix2 i⟩
  exact host_lin_apply d hd hb1 hb2 H W b p q

/-! ## Rows -/

/-- Entry (p, q) of the layer reads row `p` of `A` and of `X` only: operands whose rows agree (row `p` of one pair
    against row `r` of the other) give the same entry. Used to read a block of rows out of the whole array. -/
theorem sageAt_congr {M' : ℕ} (A X : (⟨2, ![M, K]⟩ : Shape).Idx → EReal) (A' X' : (⟨2, ![M', K]⟩ : Shape).Idx → EReal)
    (Wl Wr : (⟨2, ![K, N]⟩ : Shape).Idx → EReal) (b : Fin N → EReal) (p : Fin M) (r : Fin M') (q : Fin N)
    (hA : ∀ k : Fin K, A (ix2 p k) = A' (ix2 r k)) (hX : ∀ k : Fin K, X (ix2 p k) = X' (ix2 r k)) :
    sageAt A X Wl Wr b p q = sageAt A' X' Wl Wr b r q := by
  unfold sageAt
  simp only [hA, hX]

theorem linAt_congr {M' : ℕ} (H : (⟨2, ![M, K]⟩ : Shape).Idx → EReal) (H' : (⟨2, ![M', K]⟩ : Shape).Idx → EReal)
    (W : (⟨2, ![K, N]⟩ : Shape).Idx → EReal) (b : Fin N → EReal) (p : Fin M) (r : Fin M') (q : Fin N)
    (hH : ∀ k : Fin K, H (ix2 p k) = H' (ix2 r k)) : linAt H W b p q = linAt H' W b r q := by
  unfold linAt
  simp only [hH]

end Cert.LibSageLayer

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibSageSpec.lean ====
/-
  Two mean-aggregating graph layers, entry by entry, on the extended reals.

  A node's neighbour sum is scaled by one factor per node (a column `dc`, the reciprocal of the clamped in-degree);
  the first layer is `H = max((scaleRows M1 dc) · Wl1 + X · Wr1 + b1, 0)` (LibSageLayer's `sage`). The second layer is
  written in two arrangements:
    * projecting first: `P = H · Wl2`, its rows summed over the incoming edges into `MP`, and then
      `out2 = (MP scaled row by row by dc + b2) + H · Wr2`;
    * aggregating first: the rows of `H` summed over the incoming edges into `M2`, and then
      `refOut2 = ((scaleRows M2 dc) · Wl2 + b2) + H · Wr2`.
  `agg dst src Y` is the edge aggregation: row `n` is the sum, over the edges `e` whose destination word names `n`,
  of row `src[e]` (read signed, clamped) of `Y`, added to zero.
-/
import proofs.«180857_j84464826843467_2_alg».proof.Proof.LibSageLayer
import proofs.«180857_j84464826843467_2_alg».proof.Proof.LibNodeScatter

noncomputable section

namespace Cert.Sage

open Idealize.ShloMosaic Idealize.ShloMosaic.ValueIdx Cert.LibSageLayer Cert.LibNodes

variable {N D K M : ℕ}

/-- Row `p` of a matrix scaled by entry `p` of a column. -/
def scaleRows (A : (⟨2, ![N, D]⟩ : Shape).Idx → EReal) (dc : (⟨2, ![N, 1]⟩ : Shape).Idx → EReal) :
    (⟨2, ![N, D]⟩ : Shape).Idx → EReal :=
  fun i => A i * dc (ix2 (⟨(i 0).val, idx2_lt0 i⟩ : Fin N) (0 : Fin 1))

theorem scaleRows_ix2 (A : (⟨2, ![N, D]⟩ : Shape).Idx → EReal) (dc : (⟨2, ![N, 1]⟩ : Shape).Idx → EReal) (p : Fin N) (k : Fin D) :
    scaleRows A dc (ix2 p k) = A (ix2 p k) * dc (ix2 p (0 : Fin 1)) := rfl

/-- Entry `(p, j)` of the product `H · W`. -/
def projAt (H : (⟨2, ![N, K]⟩ : Shape).Idx → EReal) (W : (⟨2, ![K, D]⟩ : Shape).Idx → EReal) (p : Fin N) (j : Fin D) : EReal :=
  ∑ k : Fin K, H (ix2 p k) * W (ix2 k j)

/-- The product `H · W` as an array. -/
def proj (H : (⟨2, ![N, K]⟩ : Shape).Idx → EReal) (W : (⟨2, ![K, D]⟩ : Shape).Idx → EReal) : (⟨2, ![N, D]⟩ : Shape).Idx → EReal :=
  fun i => projAt H W ⟨(i 0).val, idx2_lt0 i⟩ ⟨(i 1).val, idx2_lt1 i⟩

theorem proj_ix2 (H : (⟨2, ![N, K]⟩ : Shape).Idx → EReal) (W : (⟨2, ![K, D]⟩ : Shape).Idx → EReal) (p : Fin N) (j : Fin D) :
    proj H W (ix2 p j) = projAt H W p j := rfl

/-- Entry `(n, j)` of the second layer, projecting first: `(MP(n,j) · dc(n) + b(j)) + Σ k, H(n,k) · Wr(k,j)`. -/
def out2At (MP : (⟨2, ![N, D]⟩ : Shape).Idx → EReal) (H : (⟨2, ![N, K]⟩ : Shape).Idx → EReal)
    (dc : (⟨2, ![N, 1]⟩ : Shape).Idx → EReal) (Wr : (⟨2, ![K, D]⟩ : Shape).Idx → EReal) (b : Fin D → EReal)
    (n : Fin N) (j : Fin D) : EReal :=
  ((MP (ix2 n j) * dc (ix2 n (0 : Fin 1))) + b j) + ∑ k : Fin K, H (ix2 n k) * Wr (ix2 k j)

def out2 (MP : (⟨2, ![N, D]⟩ : Shape).Idx → EReal) (H : (⟨2, ![N, K]⟩ : Shape).Idx → EReal)
    (dc : (⟨2, ![N, 1]⟩ : Shape).Idx → EReal) (Wr : (⟨2, ![K, D]⟩ : Shape).Idx → EReal) (b : Fin D → EReal) :
    (⟨2, ![N, D]⟩ : Shape).Idx → EReal :=
  fun i => out2At MP H dc Wr b ⟨(i 0).val, idx2_lt0 i⟩ ⟨(i 1).val, idx2_lt1 i⟩

theorem out2_ix2 (MP : (⟨2, ![N, D]⟩ : Shape).Idx → EReal) (H : (⟨2, ![N, K]⟩ : Shape).Idx → EReal)
    (dc : (⟨2, ![N, 1]⟩ : Shape).Idx → EReal) (Wr : (⟨2, ![K, D]⟩ : Shape).Idx → EReal) (b : Fin D → EReal) (n : Fin N) (j : Fin D) :
    out2 MP H dc Wr b (ix2 n j) = out2At MP H dc Wr b n j := rfl

/-- Entry `(n, j)` of the second layer, aggregating first: `(Σ k, (M2(n,k) · dc(n)) · Wl(k,j) + b(j)) + Σ k, H(n,k) · Wr(k,j)`. -/
def refOut2At (M2 H : (⟨2, ![N, K]⟩ : Shape).Idx → EReal) (dc : (⟨2, ![N, 1]⟩ : Shape).Idx → EReal)
    (Wl Wr : (⟨2, ![K, D]⟩ : Shape).Idx → EReal) (b : Fin D → EReal) (n : Fin N) (j : Fin D) : EReal :=
  linAt (scaleRows M2 dc) Wl b n j + projAt H Wr n j

def refOut2 (M2 H : (⟨2, ![N, K]⟩ : Shape).Idx → EReal) (dc : (⟨2, ![N, 1]⟩ : Shape).Idx → EReal)
    (Wl Wr : (⟨2, ![K, D]⟩ : Shape).Idx → EReal) (b : Fin D → EReal) : (⟨2, ![N, D]⟩ : Shape).Idx → EReal :=
  fun i => refOut2At M2 H dc Wl Wr b ⟨(i 0).val, idx2_lt0 i⟩ ⟨(i 1).val, idx2_lt1 i⟩

theorem refOut2_ix2 (M2 H : (⟨2, ![N, K]⟩ : Shape).Idx → EReal) (dc : (⟨2, ![N, 1]⟩ : Shape).Idx → EReal)
    (Wl Wr : (⟨2, ![K, D]⟩ : Shape).Idx → EReal) (b : Fin D → EReal) (n : Fin N) (j : Fin D) :
    refOut2 M2 H dc Wl Wr b (ix2 n j) = refOut2At M2 H dc Wl Wr b n j := rfl

/-- The edge aggregation: entry `(n, d)` is zero plus the sum, over the edges `e` whose destination word (read signed)
    is `n`, of entry `d` of the row of `Y` that edge `e`'s source word names (read signed, clamped into range). -/
def agg (hN : 0 < N) (dst src : IVec ⟨2, ![M, 1]⟩ 32) (Y : (⟨2, ![N, D]⟩ : Shape).Idx → EReal) : (⟨2, ![N, D]⟩ : Shape).Idx → EReal :=
  fun i => 0 + ∑ e : Fin M, if (dst (ix2 e (0 : Fin 1))).toInt = ((i 0).val : ℤ)
    then Y (ix2 (nodeOf N hN (src (ix2 e (0 : Fin 1)))) (⟨(i 1).val, idx2_lt1 i⟩ : Fin D)) else 0

theorem agg_ix2 (hN : 0 < N) (dst src : IVec ⟨2, ![M, 1]⟩ 32) (Y : (⟨2, ![N, D]⟩ : Shape).Idx → EReal) (n : Fin N) (d : Fin D) :
    agg hN dst src Y (ix2 n d) = 0 + ∑ e : Fin M, if (dst (ix2 e (0 : Fin 1))).toInt = (n.val : ℤ)
      then Y (ix2 (nodeOf N hN (src (ix2 e (0 : Fin 1)))) d) else 0 := rfl

end Cert.Sage

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«180857_j84464826843467_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Region0.lean ====
/-
  The first pallas_call's two output arrays as whole-array functions of the arrays the call finds at entry.

  The call walks 25 blocks of 2000 rows. At a block it reads the 2000 rows of the neighbour sums, of the node features
  and of the per-node factor, and the whole weight matrices and the bias row; it writes the 2000 rows of the hidden layer
  `max((scaleRows M dc) · Wl1 + X · Wr1 + b1, 0)` and of its projection through `Wl2`. A row of either output depends on
  the same row of the inputs only, and the 25 blocks tile the 50000 rows, so the written arrays are `sage …` and
  `proj (sage …) Wl2` of the whole entry arrays.
-/
import proofs.«180857_j84464826843467_2_alg».proof.Proof.Gen.KernelIdeal.Frame
import proofs.«180857_j84464826843467_2_alg».proof.Proof.LibSageSpec
import proofs.«180857_j84464826843467_2_alg».proof.Proof.LibKeepdims
import proofs.«180857_j84464826843467_2_alg».proof.Proof.LibPlainDot

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.LibSageLayer
open Cert.LibHostRead Cert.LibPlainDot Cert.LibKeepdims

/-! ## The body's two stored values at an entry -/

/-- The first layer's products (2000 × 128 by 128 × 256) are rows times columns. -/
theorem plain_hidden : PlainDot dot_S2000x128_S128x256_S2000x256_1_0_0_1_n_n where
  hr := rfl
  hs := rfl
  hl0 := fun _ _ => rfl
  hl1 := fun _ _ => rfl
  hr0 := fun _ _ => rfl
  hr1 := fun _ _ => rfl

/-- The projection's product (2000 × 256 by 256 × 128) is rows times columns. -/
theorem plain_proj : PlainDot dot_S2000x256_S256x128_S2000x128_1_0_0_1_n_n where
  hr := rfl
  hs := rfl
  hl0 := fun _ _ => rfl
  hl1 := fun _ _ => rfl
  hr0 := fun _ _ => rfl
  hr1 := fun _ _ => rfl

/-- Entry (p, q) of the first stored value: the neighbour sums' row p scaled by the factor's entry p goes through the left
    weights, the features' row p through the right weights, the bias row's entry q is added and the result is
    rectified. The casts to the same shape and the narrowings to bf16 are the identity on extended reals. -/
theorem pay1_apply (v0 : FVec Ideal S2000x1 .f32) (v4 v8 : FVec Ideal S2000x128 .f32) (v10 v13 : FVec Ideal S128x256 .bf16)
    (v17 : FVec Ideal S1x256 .f32) (p : Fin 2000) (q : Fin 256) :
    k0_pay1 (F := Ideal) v0 v4 v8 v10 v13 v17 (ix2 p q)
      = sageAt (scaleRows v4 v0) v8 v10 v13 (fun c => v17 (ix2 (0 : Fin 1) c)) p q := by
  unfold k0_pay1
  simp only [shapeCast_self]
  rw [truncf_apply, maximumf_apply, addf_apply, addf_apply, broadcast_apply, broadcastTo_1b_ab_apply,
    vmatmul_apply _ plain_hidden, vmatmul_apply _ plain_hidden]
  simp only [truncf_apply, mulf_apply, broadcastTo_a1_ab_apply]
  show max _ (Ideal.ofBits .f32 0x00000000#32) = _
  rw [Ideal.ofBits_zero_f32]
  rfl

/-- Entry (p, j) of the second stored value: row p of the first through the second layer's left weights. -/
theorem pay2_apply (v0 : FVec Ideal S2000x1 .f32) (v4 v8 : FVec Ideal S2000x128 .f32) (v10 v13 : FVec Ideal S128x256 .bf16)
    (v17 : FVec Ideal S1x256 .f32) (v25 : FVec Ideal S256x128 .bf16) (p : Fin 2000) (j : Fin 128) :
    k0_pay2 (F := Ideal) v0 v4 v8 v10 v13 v17 v25 (ix2 p j)
      = projAt (k0_pay1 (F := Ideal) v0 v4 v8 v10 v13 v17) v25 p j := by
  unfold k0_pay2
  simp only [shapeCast_self]
  rw [truncf_apply, vmatmul_apply _ plain_proj]
  rfl

variable (V : (c : Dev nD) → (b : Ref sig .tc) → Buf (Elt Ideal) ((c : Thread nD τ).loc b))

/-- The hidden layer, from the arrays the first call finds at entry. -/
def hidden (c : Dev nD) : S50000x256.Idx → EReal :=
  sage (scaleRows (V c main_v24 : S50000x128.Idx → EReal) (V c main_v12 : S50000x1.Idx → EReal))
    (V c main_arg0 : S50000x128.Idx → EReal) (V c main_v26 : S128x256.Idx → EReal) (V c main_v28 : S128x256.Idx → EReal)
    (fun q => (V c main_v31 : S1x256.Idx → EReal) (ix2 (0 : Fin 1) q))

/-! ## The blocks of the windows

A window's block at grid point `t` sits in its array, on each axis, at the block index times the block's size plus the
coordinate inside the block. The row-blocked windows (the neighbour sums, the features, the per-node factor and the two
outputs) have block index (t, 0): the block is rows 2000·t … 2000·t + 1999. The weight matrices and the bias row have
block index (0, 0) and a block that is the whole array. -/

theorem hz : (![0, 0] : Fin 2 → Nat) = fun _ => 0 := funext fun a => by fin_cases a <;> rfl

/-- The printed index maps, decided over the 25 grid points. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- A grid point is one of 25. -/
theorem point_lt (t : Fin cfg0.N) : t.val < 25 := lt_of_lt_of_eq t.isLt N_0

/-- Row p of the neighbour sums' block at point t is row 2000·t + p of the array. -/
theorem blk0_apply (c : Dev nD) (t : Fin cfg0.N) (p : Fin 2000) (k : Fin 128) (r : Fin 50000) (hr : r.val = t.val * 2000 + p.val) :
    (iblk0 V c 0 t : S2000x128.Idx → EReal) (ix2 p k) = (V c main_v24 : S50000x128.Idx → EReal) (ix2 r k) := by
  show (V c main_v24 : S50000x128.Idx → EReal) (((cfg0.win 0).blk t).view.emb (ix2 p k)) = _
  refine congrArg (V c main_v24 : S50000x128.Idx → EReal) (funext fun a => Fin.ext ?_)
  match a with
  | ⟨0, _⟩ => show win0_0.index t (0 : Fin 2) * 2000 + 1 * p.val = r.val; rw [(idx0 t).1, hr]; omega
  | ⟨1, _⟩ => show win0_0.index t (1 : Fin 2) * 128 + 1 * k.val = k.val; rw [(idx0 t).2]; omega

/-- Row p of the features' block at point t is row 2000·t + p of the array. -/
theorem blk1_apply (c : Dev nD) (t : Fin cfg0.N) (p : Fin 2000) (k : Fin 128) (r : Fin 50000) (hr : r.val = t.val * 2000 + p.val) :
    (iblk0 V c 1 t : S2000x128.Idx → EReal) (ix2 p k) = (V c main_arg0 : S50000x128.Idx → EReal) (ix2 r k) := by
  show (V c main_arg0 : S50000x128.Idx → EReal) (((cfg0.win 1).blk t).view.emb (ix2 p k)) = _
  refine congrArg (V c main_arg0 : S50000x128.Idx → EReal) (funext fun a => Fin.ext ?_)
  match a with
  | ⟨0, _⟩ => show win0_1.index t (0 : Fin 2) * 2000 + 1 * p.val = r.val; rw [(idx1 t).1, hr]; omega
  | ⟨1, _⟩ => show win0_1.index t (1 : Fin 2) * 128 + 1 * k.val = k.val; rw [(idx1 t).2]; omega

/-- Entry p of the per-node factor's block at point t is entry 2000·t + p of the column. -/
theorem blk2_apply (c : Dev nD) (t : Fin cfg0.N) (p : Fin 2000) (r : Fin 50000) (hr : r.val = t.val * 2000 + p.val) :
    (iblk0 V c 2 t : S2000x1.Idx → EReal) (ix2 p (0 : Fin 1)) = (V c main_v12 : S50000x1.Idx → EReal) (ix2 r (0 : Fin 1)) := by
  show (V c main_v12 : S50000x1.Idx → EReal) (((cfg0.win 2).blk t).view.emb (ix2 p (0 : Fin 1))) = _
  refine congrArg (V c main_v12 : S50000x1.Idx → EReal) (funext fun a => Fin.ext ?_)
  match a with
  | ⟨0, _⟩ => show win0_2.index t (0 : Fin 2) * 2000 + 1 * p.val = r.val; rw [(idx2 t).1, hr]; omega
  | ⟨1, _⟩ => show win0_2.index t (1 : Fin 2) * 1 + 1 * 0 = 0; rw [(idx2 t).2]

/-- The left weights' block is the whole matrix at every point. -/
theorem blk3_eq (c : Dev nD) (t : Fin cfg0.N) : (iblk0 V c 3 t : S128x256.Idx → EReal) = V c main_v26 := by
  funext y
  show (V c main_v26 : S128x256.Idx → EReal) (((cfg0.win 3).blk t).view.emb y) = _
  refine congrArg (V c main_v26 : S128x256.Idx → EReal) (funext fun a => Fin.ext ?_)
  match a with
  | ⟨0, _⟩ => show win0_3.index t (0 : Fin 2) * 128 + 1 * (y 0).val = (y 0).val; rw [(idx3 t).1]; omega
  | ⟨1, _⟩ => show win0_3.index t (1 : Fin 2) * 256 + 1 * (y 1).val = (y 1).val; rw [(idx3 t).2]; omega

/-- The right weights' block is the whole matrix at every point. -/
theorem blk4_eq (c : Dev nD) (t : Fin cfg0.N) : (iblk0 V c 4 t : S128x256.Idx → EReal) = V c main_v28 := by
  funext y
  show (V c main_v28 : S128x256.Idx → EReal) (((cfg0.win 4).blk t).view.emb y) = _
  refine congrArg (V c main_v28 : S128x256.Idx → EReal) (funext fun a => Fin.ext ?_)
  match a with
  | ⟨0, _⟩ => show win0_4.index t (0 : Fin 2) * 128 + 1 * (y 0).val = (y 0).val; rw [(idx4 t).1]; omega
  | ⟨1, _⟩ => show win0_4.index t (1 : Fin 2) * 256 + 1 * (y 1).val = (y 1).val; rw [(idx4 t).2]; omega

/-- The second layer's left weights' block is the whole matrix at every point. -/
theorem blk5_eq (c : Dev nD) (t : Fin cfg0.N) : (iblk0 V c 5 t : S256x128.Idx → EReal) = V c main_v30 := by
  funext y
  show (V c main_v30 : S256x128.Idx → EReal) (((cfg0.win 5).blk t).view.emb y) = _
  refine congrArg (V c main_v30 : S256x128.Idx → EReal) (funext fun a => Fin.ext ?_)
  match a with
  | ⟨0, _⟩ => show win0_5.index t (0 : Fin 2) * 256 + 1 * (y 0).val = (y 0).val; rw [(idx5 t).1]; omega
  | ⟨1, _⟩ => show win0_5.index t (1 : Fin 2) * 128 + 1 * (y 1).val = (y 1).val; rw [(idx5 t).2]; omega

/-- The bias row's block is the whole row at every point. -/
theorem blk6_eq (c : Dev nD) (t : Fin cfg0.N) : (iblk0 V c 6 t : S1x256.Idx → EReal) = V c main_v31 := by
  funext y
  show (V c main_v31 : S1x256.Idx → EReal) (((cfg0.win 6).blk t).view.emb y) = _
  refine congrArg (V c main_v31 : S1x256.Idx → EReal) (funext fun a => Fin.ext ?_)
  match a with
  | ⟨0, _⟩ => show win0_6.index t (0 : Fin 2) * 1 + 1 * (y 0).val = (y 0).val; rw [(idx6 t).1]; omega
  | ⟨1, _⟩ => show win0_6.index t (1 : Fin 2) * 256 + 1 * (y 1).val = (y 1).val; rw [(idx6 t).2]; omega

/-! ## What a grid point writes back, and the written arrays -/

/-- Entry (p, q) of the first stored value at grid point t is the hidden layer at row 2000·t + p: the layer at row p of
    the blocks reads row 2000·t + p of the arrays, with the whole weights and bias. -/
theorem pay1_block (c : Dev nD) (t : Fin cfg0.N) (p : Fin 2000) (q : Fin 256) (r : Fin 50000) (hr : r.val = t.val * 2000 + p.val) :
    k0_pay1 (F := Ideal) (iblk0 V c 2 t) (iblk0 V c 0 t) (iblk0 V c 1 t) (iblk0 V c 3 t) (iblk0 V c 4 t) (iblk0 V c 6 t) (ix2 p q)
      = hidden V c (ix2 r q) := by
  refine (pay1_apply _ _ _ _ _ _ p q).trans ?_
  rw [blk3_eq, blk4_eq, blk6_eq]
  exact sageAt_congr _ _ _ _ _ _ _ p r q
    (fun k => by rw [scaleRows_ix2, scaleRows_ix2, blk0_apply V c t p k r hr, blk2_apply V c t p r hr])
    (fun k => blk1_apply V c t p k r hr)

/-- Grid point t writes back block t of the hidden layer. -/
theorem flushed7_eq (c : Dev nD) (t : Fin cfg0.N) :
    (dat0 (F := Ideal) V c).flushed 7 t = ((cfg0.win 7).blk t).view.read (Elt Ideal) (hidden V c) := by
  show (cfg0.win 7).cut (grid0.coords t) ((dat0 (F := Ideal) V c).after 7 t) = _
  rw [after0_7]
  unfold out0_7
  rw [View.canon_unit_zero hz]
  simp only [View.ld_unit_zero (S := S2000x128) hz, View.ld_unit_zero (S := S2000x1) hz,
    View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  have ht := point_lt t
  obtain ⟨r, hr⟩ : ∃ r : Fin 50000, r.val = t.val * 2000 + p.val := ⟨⟨t.val * 2000 + p.val, by omega⟩, rfl⟩
  have hi : (((cfg0.win 7).blk t).view.emb (ix2 p q) : S50000x256.Idx) = ix2 r q := funext fun a => Fin.ext (by
    match a with
    | ⟨0, _⟩ => show win0_7.index t (0 : Fin 2) * 2000 + 1 * p.val = r.val; rw [(idx7 t).1, hr]; omega
    | ⟨1, _⟩ => show win0_7.index t (1 : Fin 2) * 256 + 1 * q.val = q.val; rw [(idx7 t).2]; omega)
  show k0_pay1 (F := Ideal) (iblk0 V c 2 t) (iblk0 V c 0 t) (iblk0 V c 1 t) (iblk0 V c 3 t) (iblk0 V c 4 t) (iblk0 V c 6 t) (ix2 p q)
    = hidden V c (((cfg0.win 7).blk t).view.emb (ix2 p q))
  rw [hi]
  exact pay1_block V c t p q r hr

/-- An index of the hidden layer's array is in point t's block iff its row is among the block's 2000 rows. -/
theorem mem_blk7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v32_0).slice (win0_7.rect t)).set ↔ _
  rw [View.set_slice_whole, Rect.mem_set_unit]
  exact Iff.rfl

/-- Row r of the array is in the block of point r / 2000, which writes back. -/
theorem cover7 (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, htv⟩ : ∃ t : Fin cfg0.N, t.val = (i 0).val / 2000 :=
    ⟨⟨(i 0).val / 2000, lt_of_lt_of_eq (by omega : (i 0).val / 2000 < 25) N_0.symm⟩, rfl⟩
  refine ⟨t, flush0_7 t, ?_⟩
  rw [mem_blk7]
  intro a
  match a with
  | ⟨0, _⟩ =>
    show win0_7.index t (0 : Fin 2) * 2000 ≤ (i 0).val ∧ (i 0).val < win0_7.index t (0 : Fin 2) * 2000 + 2000
    rw [(idx7 t).1]; omega
  | ⟨1, _⟩ =>
    show win0_7.index t (1 : Fin 2) * 256 ≤ (i 1).val ∧ (i 1).val < win0_7.index t (1 : Fin 2) * 256 + 256
    rw [(idx7 t).2]; omega

/-- Output window 7's array after the call: the hidden layer. -/
theorem arr7 (c : Dev nD) : ((dat0 (F := Ideal) V c).arrAt 7 cfg0.N : S50000x256.Idx → EReal) = hidden V c :=
  (dat0 (F := Ideal) V c).arrAt_eq_of_cover 7 (hidden V c) (fun t _ => flushed7_eq V c t) (cover7)

/-- Grid point t writes back block t of the projected hidden layer: entry (p, j) of the second stored value is row p of the
    first through the whole second-layer weights, and row p of the first is row 2000·t + p of the hidden layer. -/
theorem flushed8_eq (c : Dev nD) (t : Fin cfg0.N) :
    (dat0 (F := Ideal) V c).flushed 8 t
      = ((cfg0.win 8).blk t).view.read (Elt Ideal) (proj (hidden V c) (V c main_v30 : S256x128.Idx → EReal)) := by
  show (cfg0.win 8).cut (grid0.coords t) ((dat0 (F := Ideal) V c).after 8 t) = _
  rw [after0_8]
  unfold out0_8
  rw [View.canon_unit_zero hz]
  simp only [View.ld_unit_zero (S := S2000x128) hz, View.ld_unit_zero (S := S2000x1) hz,
    View.ld_unit_zero (S := S128x256) hz, View.ld_unit_zero (S := S1x256) hz, View.ld_unit_zero (S := S256x128) hz]
  funext y
  obtain ⟨p, j, rfl⟩ : ∃ (p : Fin 2000) (j : Fin 128), y = ix2 p j := ⟨y 0, y 1, eq_ix2 y⟩
  have ht := point_lt t
  obtain ⟨r, hr⟩ : ∃ r : Fin 50000, r.val = t.val * 2000 + p.val := ⟨⟨t.val * 2000 + p.val, by omega⟩, rfl⟩
  have hi : (((cfg0.win 8).blk t).view.emb (ix2 p j) : S50000x128.Idx) = ix2 r j := funext fun a => Fin.ext (by
    match a with
    | ⟨0, _⟩ => show win0_8.index t (0 : Fin 2) * 2000 + 1 * p.val = r.val; rw [(idx8 t).1, hr]; omega
    | ⟨1, _⟩ => show win0_8.index t (1 : Fin 2) * 128 + 1 * j.val = j.val; rw [(idx8 t).2]; omega)
  show k0_pay2 (F := Ideal) (iblk0 V c 2 t) (iblk0 V c 0 t) (iblk0 V c 1 t) (iblk0 V c 3 t) (iblk0 V c 4 t) (iblk0 V c 6 t) (iblk0 V c 5 t) (ix2 p j)
    = proj (hidden V c) (V c main_v30 : S256x128.Idx → EReal) (((cfg0.win 8).blk t).view.emb (ix2 p j))
  rw [hi, proj_ix2]
  refine (pay2_apply _ _ _ _ _ _ _ p j).trans ?_
  unfold projAt
  rw [blk5_eq]
  exact Finset.sum_congr rfl fun k _ => by rw [pay1_block V c t p k r hr]

/-- An index of the projected layer's array is in point t's block iff its row is among the block's 2000 rows. -/
theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v32_1).slice (win0_8.rect t)).set ↔ _
  rw [View.set_slice_whole, Rect.mem_set_unit]
  exact Iff.rfl

/-- Row r of the array is in the block of point r / 2000, which writes back. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, htv⟩ : ∃ t : Fin cfg0.N, t.val = (i 0).val / 2000 :=
    ⟨⟨(i 0).val / 2000, lt_of_lt_of_eq (by omega : (i 0).val / 2000 < 25) N_0.symm⟩, rfl⟩
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    rw [(idx8 t).1]; omega
  | ⟨1, _⟩ =>
    show win0_8.index t (1 : Fin 2) * 128 ≤ (i 1).val ∧ (i 1).val < win0_8.index t (1 : Fin 2) * 128 + 128
    rw [(idx8 t).2]; omega

/-- Output window 8's array after the call: the hidden layer projected through the second layer's left weights. -/
theorem arr8 (c : Dev nD) : ((dat0 (F := Ideal) V c).arrAt 8 cfg0.N : S50000x128.Idx → EReal)
    = proj (hidden V c) (V c main_v30 : S256x128.Idx → EReal) :=
  (dat0 (F := Ideal) V c).arrAt_eq_of_cover 8 (proj (hidden V c) (V c main_v30 : S256x128.Idx → EReal))
    (fun t _ => flushed8_eq V c t) cover8

end Cert.KernelIdeal.Region0

end
-- ==== Proof.Region1.lean ====
/-
  The second pallas_call's output array as a whole-array function of the arrays the call finds at entry.

  The call walks 25 blocks of 2000 rows. At a block it reads the 2000 rows of the aggregated projections, of the hidden
  layer and of the per-node factor, and the whole right weight matrix and the bias row; it writes the 2000 rows of
  `(MP scaled row by row + b2) + H · Wr2`. A row of the output depends on the same row of the inputs only, and the 25
  blocks tile the 50000 rows, so the written array is `out2 …` of the whole entry arrays.
-/
import proofs.«180857_j84464826843467_2_alg».proof.Proof.Gen.KernelIdeal.Frame
import proofs.«180857_j84464826843467_2_alg».proof.Proof.LibSageSpec
import proofs.«180857_j84464826843467_2_alg».proof.Proof.LibKeepdims
import proofs.«180857_j84464826843467_2_alg».proof.Proof.LibPlainDot

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.LibSageLayer

variable (V : (c : Dev nD) → (b : Ref sig .tc) → Buf (Elt Ideal) ((c : Thread nD τ).loc b))

/-- The plain 2000 × 256 by 256 × 128 product's dimension numbers are rows times columns. -/
theorem plainDot1 : Cert.LibHostRead.PlainDot dot_S2000x256_S256x128_S2000x128_1_0_0_1_n_n :=
  Cert.LibPlainDot.plainDot_plain 2000 256 128

/-- The body's arithmetic at entry (p, j): the aggregated projection scaled by the row's factor, plus the bias of the
    column, plus row p of the hidden layer times column j of the right weights. -/
theorem pay_apply (v0 : FVec Ideal S2000x1 .f32) (v4 : FVec Ideal S2000x128 .f32) (v7 : FVec Ideal S1x128 .f32)
    (v11 : FVec Ideal S2000x256 .bf16) (v13 : FVec Ideal S256x128 .bf16) (p : Fin 2000) (j : Fin 128) :
    k1_pay1 (F := Ideal) v0 v4 v7 v11 v13 (ix2 p j)
      = out2At (v4 : S2000x128.Idx → EReal) (v11 : S2000x256.Idx → EReal) (v0 : S2000x1.Idx → EReal)
          (v13 : S256x128.Idx → EReal) (fun c => (v7 : S1x128.Idx → EReal) (ix2 (0 : Fin 1) c)) p j := by
  unfold k1_pay1
  simp only [shapeCast_self]
  rw [addf_apply, addf_apply, mulf_apply, Cert.LibKeepdims.broadcastTo_a1_ab_apply, broadcastTo_1b_ab_apply]
  show (_ + _) + FloatOps.matmul dot_S2000x256_S256x128_S2000x128_1_0_0_1_n_n none v11 v13
      (constant S2000x128 .f32 0x00000000#32) (ix2 p j) = _
  rw [Cert.LibHostRead.matmul_plain_zero_apply _ plainDot1]
  rfl

/-- Entry (p, j) of the second layer reads row p of MP, H and dc only: operands whose rows agree (row p of one triple
    against row r of the other) give the same entry. Used to read a block of rows out of the whole arrays. -/
theorem out2At_congr {N N' D K : ℕ} (MP : (⟨2, ![N, D]⟩ : Shape).Idx → EReal) (H : (⟨2, ![N, K]⟩ : Shape).Idx → EReal)
    (dc : (⟨2, ![N, 1]⟩ : Shape).Idx → EReal) (MP' : (⟨2, ![N', D]⟩ : Shape).Idx → EReal)
    (H' : (⟨2, ![N', K]⟩ : Shape).Idx → EReal) (dc' : (⟨2, ![N', 1]⟩ : Shape).Idx → EReal)
    (Wr : (⟨2, ![K, D]⟩ : Shape).Idx → EReal) (b : Fin D → EReal) (p : Fin N) (r : Fin N') (j : Fin D)
    (hMP : MP (ix2 p j) = MP' (ix2 r j)) (hH : ∀ k : Fin K, H (ix2 p k) = H' (ix2 r k))
    (hdc : dc (ix2 p (0 : Fin 1)) = dc' (ix2 r (0 : Fin 1))) :
    out2At MP H dc Wr b p j = out2At MP' H' dc' Wr b r j := by
  unfold out2At
  simp only [hH]
  rw [hMP, hdc]

/-- A block of 2000 rows whose entries are rows 2000·T … of the whole arrays (the weights and the bias row whole):
    the body's arithmetic at entry y of the block is the second layer at the entry i of the whole output that sits
    at row 2000·T + (row of y), same column. -/
theorem block_entry (MP : S50000x128.Idx → EReal) (H : S50000x256.Idx → EReal) (dc : S50000x1.Idx → EReal)
    (Wr : S256x128.Idx → EReal) (B : S1x128.Idx → EReal)
    (x0 : FVec Ideal S2000x128 .f32) (x1 : FVec Ideal S2000x256 .bf16) (x2 : FVec Ideal S2000x1 .f32)
    (x3 : FVec Ideal S256x128 .bf16) (x4 : FVec Ideal S1x128 .f32) (T : ℕ)
    (h0 : ∀ (u : S2000x128.Idx) (v : S50000x128.Idx), (v 0).val = T * 2000 + (u 0).val → (v 1).val = (u 1).val → x0 u = MP v)
    (h1 : ∀ (u : S2000x256.Idx) (v : S50000x256.Idx), (v 0).val = T * 2000 + (u 0).val → (v 1).val = (u 1).val → x1 u = H v)
    (h2 : ∀ (u : S2000x1.Idx) (v : S50000x1.Idx), (v 0).val = T * 2000 + (u 0).val → (v 1).val = (u 1).val → x2 u = dc v)
    (h3 : x3 = Wr) (h4 : x4 = B)
    (y : S2000x128.Idx) (i : S50000x128.Idx) (hi0 : (i 0).val = T * 2000 + (y 0).val) (hi1 : (i 1).val = (y 1).val) :
    k1_pay1 (F := Ideal) x2 x0 x4 x1 x3 y = out2 MP H dc Wr (fun q => B (ix2 (0 : Fin 1) q)) i := by
  obtain ⟨p, j, rfl⟩ : ∃ (p : Fin 2000) (j : Fin 128), y = ix2 p j := ⟨y 0, y 1, eq_ix2 y⟩
  subst h3 h4
  rw [pay_apply]
  have hj : (⟨(i 1).val, idx2_lt1 i⟩ : Fin 128) = j := Fin.ext hi1
  show out2At x0 x1 x2 x3 _ p j = out2At MP H dc x3 _ ⟨(i 0).val, idx2_lt0 i⟩ ⟨(i 1).val, idx2_lt1 i⟩
  rw [hj]
  exact out2At_congr _ _ _ _ _ _ _ _ p ⟨(i 0).val, idx2_lt0 i⟩ j (h0 _ _ hi0 rfl) (fun k => h1 _ _ hi0 rfl) (h2 _ _ hi0 rfl)

theorem hz : (![0, 0] : Fin 2 → Nat) = fun _ => 0 := funext fun a => by fin_cases a <;> rfl

/-- The printed index maps, decided over the 25 grid points: the row-blocked windows sit at block row t, column block 0;
    the weight matrix and the bias row are their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 2000·t … 2000·t + 1999 of the aggregated projections. -/
theorem iblk0_apply (c : Dev nD) (t : Fin cfg1.N) (u : S2000x128.Idx) (v : S50000x128.Idx)
    (hv0 : (v 0).val = t.val * 2000 + (u 0).val) (hv1 : (v 1).val = (u 1).val) :
    (iblk1 (F := Ideal) V c 0 t : FVec Ideal S2000x128 .f32) u = (V c main_v43 : S50000x128.Idx → EReal) v := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 2000 + 1 * (u 0).val = (v 0).val; omega
  | ⟨1, _⟩ => show win1_0.index t (1 : Fin 2) * 128 + 1 * (u 1).val = (v 1).val; omega

/-- Window 1's block at point t is rows 2000·t … 2000·t + 1999 of the hidden layer. -/
theorem iblk1_apply (c : Dev nD) (t : Fin cfg1.N) (u : S2000x256.Idx) (v : S50000x256.Idx)
    (hv0 : (v 0).val = t.val * 2000 + (u 0).val) (hv1 : (v 1).val = (u 1).val) :
    (iblk1 (F := Ideal) V c 1 t : FVec Ideal S2000x256 .bf16) u = (V c main_v32_0 : S50000x256.Idx → EReal) v := by
  obtain ⟨-, -, e0, e1, -⟩ := idx_facts t
  unfold iblk1
  rw [View.read_apply]
  show V c main_v32_0 _ = V c main_v32_0 _
  congr 1
  funext a
  apply Fin.ext
  match a with
  | ⟨0, _⟩ => show win1_1.index t (0 : Fin 2) * 2000 + 1 * (u 0).val = (v 0).val; omega
  | ⟨1, _⟩ => show win1_1.index t (1 : Fin 2) * 256 + 1 * (u 1).val = (v 1).val; omega

/-- Window 2's block at point t is rows 2000·t … 2000·t + 1999 of the per-node factor. -/
theorem iblk2_apply (c : Dev nD) (t : Fin cfg1.N) (u : S2000x1.Idx) (v : S50000x1.Idx)
    (hv0 : (v 0).val = t.val * 2000 + (u 0).val) (hv1 : (v 1).val = (u 1).val) :
    (iblk1 (F := Ideal) V c 2 t : FVec Ideal S2000x1 .f32) u = (V c main_v12 : S50000x1.Idx → EReal) v := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t (0 : Fin 2) * 2000 + 1 * (u 0).val = (v 0).val; omega
  | ⟨1, _⟩ => show win1_2.index t (1 : Fin 2) * 1 + 1 * (u 1).val = (v 1).val; omega

/-- Window 3's one block is the whole right weight matrix. -/
theorem iblk3_eq (c : Dev nD) (t : Fin cfg1.N) :
    (iblk1 (F := Ideal) V c 3 t : FVec Ideal S256x128 .bf16) = (V c main_v45 : S256x128.Idx → EReal) := by
  obtain ⟨-, -, -, -, -, -, e0, e1, -⟩ := idx_facts t
  funext u
  unfold iblk1
  rw [View.read_apply]
  show V c main_v45 _ = V c main_v45 _
  congr 1
  funext a
  apply Fin.ext
  match a with
  | ⟨0, _⟩ => show win1_3.index t (0 : Fin 2) * 256 + 1 * (u 0).val = (u 0).val; omega
  | ⟨1, _⟩ => show win1_3.index t (1 : Fin 2) * 128 + 1 * (u 1).val = (u 1).val; omega

/-- Window 4's one block is the whole bias row. -/
theorem iblk4_eq (c : Dev nD) (t : Fin cfg1.N) :
    (iblk1 (F := Ideal) V c 4 t : FVec Ideal S1x128 .f32) = (V c main_v46 : S1x128.Idx → EReal) := by
  obtain ⟨-, -, -, -, -, -, -, -, e0, e1, -⟩ := idx_facts t
  funext u
  unfold iblk1
  rw [View.read_apply]
  show V c main_v46 _ = V c main_v46 _
  congr 1
  funext a
  apply Fin.ext
  match a with
  | ⟨0, _⟩ => show win1_4.index t (0 : Fin 2) * 1 + 1 * (u 0).val = (u 0).val; omega
  | ⟨1, _⟩ => show win1_4.index t (1 : Fin 2) * 128 + 1 * (u 1).val = (u 1).val; omega

/-- What point t writes back is block t of the second layer of the whole entry arrays. -/
theorem flushed_eq (c : Dev nD) (t : Fin cfg1.N) :
    (dat1 (F := Ideal) V c).flushed 5 t = ((cfg1.win 5).blk t).view.read (Elt Ideal)
      (out2 (V c main_v43 : S50000x128.Idx → EReal) (V c main_v32_0 : S50000x256.Idx → EReal) (V c main_v12 : S50000x1.Idx → EReal)
        (V c main_v45 : S256x128.Idx → EReal) (fun q => (V c main_v46 : S1x128.Idx → EReal) (ix2 (0 : Fin 1) q))) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x128) hz, View.ld_unit_zero (S := S1x128) hz,
    View.ld_unit_zero (S := S2000x256) hz, View.ld_unit_zero (S := S256x128) hz]
  obtain ⟨-, -, -, -, -, -, -, -, -, -, e0, e1⟩ := idx_facts t
  funext y
  show k1_pay1 (F := Ideal) (iblk1 V c 2 t) (iblk1 V c 0 t) (iblk1 V c 4 t) (iblk1 V c 1 t) (iblk1 V c 3 t) y
    = out2 (V c main_v43 : S50000x128.Idx → EReal) (V c main_v32_0 : S50000x256.Idx → EReal) (V c main_v12 : S50000x1.Idx → EReal)
        (V c main_v45 : S256x128.Idx → EReal) (fun q => (V c main_v46 : S1x128.Idx → EReal) (ix2 (0 : Fin 1) q))
        (((cfg1.win 5).blk t).view.emb y)
  refine block_entry _ _ _ _ _ _ _ _ _ _ t.val (iblk0_apply V c t) (iblk1_apply V c t) (iblk2_apply V c t)
    (iblk3_eq V c t) (iblk4_eq V c t) y _ ?_ ?_
  · show win1_5.index t (0 : Fin 2) * 2000 + 1 * (y 0).val = t.val * 2000 + (y 0).val
    omega
  · show win1_5.index t (1 : Fin 2) * 128 + 1 * (y 1).val = (y 1).val
    omega

/-- An index of the output is in point t's block iff each coordinate is in the block's range on its axis. -/
theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v47).slice (win1_5.rect t)).set ↔ _
  rw [View.set_slice_whole, Rect.mem_set_unit]
  exact Iff.rfl

/-- The 25 blocks of 2000 rows tile the 50000 rows: row r is in the block of point r / 2000. -/
theorem cover5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 25 := N_1
  have ht : (i 0).val / 2000 < cfg1.N := by rw [hN]; omega
  obtain ⟨t, htv⟩ : ∃ t : Fin cfg1.N, t.val = (i 0).val / 2000 := ⟨⟨_, ht⟩, rfl⟩
  obtain ⟨-, -, -, -, -, -, -, -, -, -, e0, e1⟩ := idx_facts t
  refine ⟨t, flush1_5 t, ?_⟩
  rw [mem_blk5]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- Output window 5's array after the call. -/
theorem arr5 (c : Dev nD) : ((dat1 (F := Ideal) V c).arrAt 5 cfg1.N : S50000x128.Idx → EReal)
    = out2 (V c main_v43 : S50000x128.Idx → EReal) (V c main_v32_0 : S50000x256.Idx → EReal) (V c main_v12 : S50000x1.Idx → EReal)
        (V c main_v45 : S256x128.Idx → EReal) (fun q => (V c main_v46 : S1x128.Idx → EReal) (ix2 (0 : Fin 1) q)) := by
  exact (dat1 (F := Ideal) V c).arrAt_eq_of_cover 5 _ (fun t _ => flushed_eq V c t) cover5

end Cert.KernelIdeal.Region1

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.LibSageLaw.lean ====
/-
  The two arrangements of the second layer agree on real-valued data, and the host's scatter of gathered rows is the
  edge aggregation.

  Projecting the hidden rows through `Wl` before summing them over a node's incoming edges, or summing first and projecting
  the scaled sum afterwards, is the same number: both are `dc(n) · Σ_e Σ_k H(src e, k) · Wl(k, j)` once the factor is moved
  across the finite sums. On the extended reals that move is distributivity, which fails at the infinities; so the statement
  asks `H`, `Wl` and the column `dc` to be real-valued, and is then the real identity carried through the coercion.
-/
import proofs.«180857_j84464826843467_2_alg».proof.Proof.LibSageSpec
import proofs.«180857_j84464826843467_2_alg».proof.Proof.LibRealValued
import proofs.«180857_j84464826843467_2_alg».proof.Proof.LibVecMatAssoc

noncomputable section

namespace Cert.Sage

open Idealize.ShloMosaic Idealize.ShloMosaic.ValueIdx Cert.LibSageLayer Cert.LibNodes Cert.Lib.RealValued

variable {N D K M : ℕ}

/-- The host's accumulating scatter, along the node axis, of rows gathered along the node axis, into an all-zero array,
    is the edge aggregation `agg`. -/
theorem hostAgg_eq (hN : 0 < N)
    (wf : ScatterDims.WF ⟨2, ![N, D]⟩ ⟨2, ![M, 1]⟩ ⟨2, ![M, D]⟩ [1] [0] [0] 1)
    (wfg : GatherDims.WF ⟨2, ![N, D]⟩ ⟨2, ![M, 1]⟩ ⟨2, ![M, D]⟩ [1] [0] [] [0] [] 1 ![1, D])
    (dst src : IVec ⟨2, ![M, 1]⟩ 32) (Y : (⟨2, ![N, D]⟩ : Shape).Idx → EReal)
    (x0 : (⟨2, ![N, D]⟩ : Shape).Idx → EReal) (hx0 : ∀ i, x0 i = 0) :
    Ideal.hostScatterAdd (nodeScatterDims N D M wf) x0 dst (Host.gather (nodeGatherDims N D M wfg) Y src)
      = agg hN dst src Y := by
  funext i
  obtain ⟨n, d, rfl⟩ : ∃ (n : Fin N) (d : Fin D), i = ix2 n d := ⟨i 0, i 1, eq_ix2 i⟩
  rw [agg_ix2, hostScatterAdd_nodes_apply, hx0]
  refine congrArg (fun t => (0 : EReal) + t) ?_
  exact Finset.sum_congr rfl fun e _ => by rw [gather_nodes_apply (hN := hN)]

/-- A conditional with a real branch and a zero branch is the coercion of the real conditional. -/
private theorem coe_ite (p : Prop) [Decidable p] (r : ℝ) :
    (if p then (r : EReal) else 0) = ((if p then r else 0 : ℝ) : EReal) := by
  split_ifs
  · rfl
  · exact EReal.coe_zero.symm

/-- The real identity: a factor `d` and the weights `w` moved across the sum over the selected edges,
    `(Σ_{e ∈ c} Σ_k h(e,k) · w(k)) · d = Σ_k ((Σ_{e ∈ c} h(e,k)) · d) · w(k)`. -/
private theorem real_law (c : Fin M → Prop) [DecidablePred c] (h : Fin M → Fin K → ℝ) (w : Fin K → ℝ) (d : ℝ) :
    (0 + ∑ e : Fin M, if c e then ∑ k : Fin K, h e k * w k else 0) * d
      = ∑ k : Fin K, ((0 + ∑ e : Fin M, if c e then h e k else 0) * d) * w k := by
  simp only [zero_add, Finset.sum_mul]
  conv_rhs => rw [Finset.sum_comm]
  refine Finset.sum_congr rfl fun e _ => ?_
  by_cases hc : c e
  · simp only [if_pos hc]
    rw [Finset.sum_mul]
    exact Finset.sum_congr rfl fun k _ => by ring
  · simp only [if_neg hc, zero_mul, Finset.sum_const_zero]

/-- The same identity on the extended reals, for coercions of reals: both sides are the coercion of the
    corresponding side of the real identity. -/
private theorem ereal_law_coe (c : Fin M → Prop) [DecidablePred c] (h : Fin M → Fin K → ℝ) (w : Fin K → ℝ) (d : ℝ) :
    (0 + ∑ e : Fin M, if c e then ∑ k : Fin K, (h e k : EReal) * (w k : EReal) else 0) * (d : EReal)
      = ∑ k : Fin K, ((0 + ∑ e : Fin M, if c e then (h e k : EReal) else 0) * (d : EReal)) * (w k : EReal) := by
  have L : (0 + ∑ e : Fin M, if c e then ∑ k : Fin K, (h e k : EReal) * (w k : EReal) else 0) * (d : EReal)
      = (((0 + ∑ e : Fin M, if c e then ∑ k : Fin K, h e k * w k else 0) * d : ℝ) : EReal) := by
    rw [EReal.coe_mul, EReal.coe_add, EReal.coe_zero, Cert.Lib.VecMatAssoc.coe_sum]
    refine congrArg (fun t => ((0 : EReal) + t) * (d : EReal)) (Finset.sum_congr rfl fun e _ => ?_)
    rw [Cert.Lib.VecMatAssoc.sum_mul_coe Finset.univ (fun k => (h e k : EReal)) (fun k => (w k : EReal)) (h e) w
      (fun _ => rfl) (fun _ => rfl)]
    exact coe_ite _ _
  have R : ∑ k : Fin K, ((0 + ∑ e : Fin M, if c e then (h e k : EReal) else 0) * (d : EReal)) * (w k : EReal)
      = ((∑ k : Fin K, ((0 + ∑ e : Fin M, if c e then h e k else 0) * d) * w k : ℝ) : EReal) := by
    refine Cert.Lib.VecMatAssoc.sum_mul_coe Finset.univ _ _ (fun k => (0 + ∑ e : Fin M, if c e then h e k else 0) * d) w
      (fun k => ?_) (fun _ => rfl)
    rw [EReal.coe_mul, EReal.coe_add, EReal.coe_zero, Cert.Lib.VecMatAssoc.coe_sum]
    exact congrArg (fun t => ((0 : EReal) + t) * (d : EReal)) (Finset.sum_congr rfl fun e _ => coe_ite _ _)
  rw [L, R, real_law]

/-- The identity for real-valued extended reals. -/
private theorem ereal_law (c : Fin M → Prop) [DecidablePred c] (h : Fin M → Fin K → EReal) (w : Fin K → EReal) (d : EReal)
    (hh : ∀ e k, IsReal (h e k)) (hw : ∀ k, IsReal (w k)) (hd : IsReal d) :
    (0 + ∑ e : Fin M, if c e then ∑ k : Fin K, h e k * w k else 0) * d
      = ∑ k : Fin K, ((0 + ∑ e : Fin M, if c e then h e k else 0) * d) * w k := by
  obtain ⟨dr, rfl⟩ := hd
  choose hr hhr using hh
  choose wr hwr using hw
  simp only [hhr, hwr]
  exact ereal_law_coe c hr wr dr

/-- The second layer, projecting first or aggregating first: equal on real-valued hidden rows, left weights and factors. -/
theorem layer2_law (hN : 0 < N) (dst src : IVec ⟨2, ![M, 1]⟩ 32)
    (H : (⟨2, ![N, K]⟩ : Shape).Idx → EReal) (dc : (⟨2, ![N, 1]⟩ : Shape).Idx → EReal)
    (Wl Wr : (⟨2, ![K, D]⟩ : Shape).Idx → EReal) (b : Fin D → EReal)
    (hH : AllReal H) (hdc : AllReal dc) (hWl : AllReal Wl) :
    out2 (agg hN dst src (proj H Wl)) H dc Wr b = refOut2 (agg hN dst src H) H dc Wl Wr b := by
  funext i
  obtain ⟨n, j, rfl⟩ : ∃ (n : Fin N) (j : Fin D), i = ix2 n j := ⟨i 0, i 1, eq_ix2 i⟩
  rw [out2_ix2, refOut2_ix2]
  unfold out2At refOut2At linAt
  refine congrArg (fun t => (t + b j) + projAt H Wr n j) ?_
  simp only [scaleRows_ix2, agg_ix2, proj_ix2]
  unfold projAt
  exact ereal_law (fun e : Fin M => (dst (ix2 e (0 : Fin 1))).toInt = (n.val : ℤ))
    (fun e k => H (ix2 (nodeOf N hN (src (ix2 e (0 : Fin 1)))) k)) (fun k => Wl (ix2 k j)) (dc (ix2 n (0 : Fin 1)))
    (fun e k => hH _) (fun k => hWl _) (hdc _)

end Cert.Sage

end
-- ==== Proof.KValue.lean ====
/-
  The kernel's result as the second layer projecting first.

  The run's fold through @main is read back: the first stretch of host operations leaves, at the first call's entry, the
  first neighbour sum, the per-node factor as a column, the transposed weights and the bias row; the first call leaves the
  hidden layer and its projection; the second stretch gathers the projected rows of the edges' sources and sums them at
  the destinations; the second call leaves `out2` of those. Put together, the result buffer ends at
  `out2 (agg dst src (proj H Wl2)) H dc Wr2 b2` with `H` the hidden layer of the launched arguments.
-/
import proofs.«180857_j84464826843467_2_alg».proof.Proof.Gen.KernelIdeal.Frame
import proofs.«180857_j84464826843467_2_alg».proof.Proof.LibSageLaw
import Idealize.ShloMosaic.Lib.StableHlo.Run

set_option maxRecDepth 16384

noncomputable section

namespace Cert.KernelIdeal.KValue

open Idealize.ShloMosaic Idealize.ShloMosaic.TcCoe Idealize.ShloMosaic.Tactic Idealize.SL.Sem Idealize.ShloMosaic.StableHlo
open Idealize.ShloMosaic.ValueIdx
open Idealize.ShloMosaic.Pipeline (Dat Cfg Window)
open Cert.KernelIdeal Cert.KernelIdeal.Gen Cert.Sage Cert.LibSageLayer Cert.LibNodes

variable (m : (ℓ : Loc nD τ sig) → Buf (Elt Ideal) ℓ) (ρ : Dev nD → PrngReg) (c : Dev nD)

/-! ## The pieces, as functions of the launched arguments -/

/-- Argument 0, as launched. -/
abbrev a0 : FVec Ideal S50000x128 .f32 := m ((c : Thread nD τ).loc main_arg0)
/-- Argument 1, as launched. -/
abbrev a1 : FVec Ideal S256x128 .f32 := m ((c : Thread nD τ).loc main_arg1)
/-- Argument 2, as launched. -/
abbrev a2 : FVec Ideal S256 .f32 := m ((c : Thread nD τ).loc main_arg2)
/-- Argument 3, as launched. -/
abbrev a3 : FVec Ideal S256x128 .f32 := m ((c : Thread nD τ).loc main_arg3)
/-- Argument 4, as launched. -/
abbrev a4 : FVec Ideal S128x256 .f32 := m ((c : Thread nD τ).loc main_arg4)
/-- Argument 5, as launched. -/
abbrev a5 : FVec Ideal S128 .f32 := m ((c : Thread nD τ).loc main_arg5)
/-- Argument 6, as launched. -/
abbrev a6 : FVec Ideal S128x256 .f32 := m ((c : Thread nD τ).loc main_arg6)
/-- Argument 7, as launched. -/
abbrev a7 : IVec S2x800000 32 := m ((c : Thread nD τ).loc main_arg7)

/-- The edges' source words, as launched. -/
def srcRow : IVec S800000 32 :=
  shapeCast _ (extractStridedSlice S1x800000 ![0, 0] (a7 m c) slices_S2x800000_S1x800000_0_0) shapeCasts_S1x800000_S800000
/-- The edges' destination words. -/
def dstRow : IVec S800000 32 :=
  shapeCast _ (extractStridedSlice S1x800000 ![1, 0] (a7 m c) slices_S2x800000_S1x800000_1_0) shapeCasts_S1x800000_S800000
/-- The destination words as a column. -/
def dstCol : IVec S800000x1 32 := broadcastInDim S800000x1 ![0] bcast_S800000_S800000x1_0 (dstRow m c)
/-- The source words, a negative one wrapped around by the node count, as a column. -/
def srcCol : IVec S800000x1 32 :=
  broadcastInDim S800000x1 ![0] bcast_S800000_S800000x1_0 (select (cmpi .slt (srcRow m c) (broadcastInDim S800000 ![] bcast_S_S800000 (constantI S_ 32 0#32))) (addi (srcRow m c) (broadcastInDim S800000 ![] bcast_S_S800000 (constantI S_ 32 50000#32))) (srcRow m c))
/-- The per-node factor: one over the in-degree joined with one. -/
def dvec : FVec Ideal S50000 .f32 :=
  Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (dstCol m c) (broadcastInDim S800000 ![] bcast_S_S800000 (constant S_ .f32 0x3F800000#32))) (broadcastInDim S50000 ![] bcast_S_S50000 (constant S_ .f32 0x3F800000#32)))
/-- The factor as a column. -/
def dcol : FVec Ideal S50000x1 .f32 := shapeCast S50000x1 (dvec m c) shapeCasts_S50000_S50000x1
/-- The first neighbour sum: the feature rows of the sources, summed at the destinations. -/
def msg1 : FVec Ideal S50000x128 .f32 :=
  Host.scatterAdd scatter_S50000x128_S800000x1_S800000x128_1_0_0_1 (broadcastInDim S50000x128 ![] bcast_S_S50000x128 (constant S_ .f32 0x00000000#32)) (dstCol m c) (extf .f32 (Host.gather gather_S50000x128_S800000x1_S800000x128_1_0_n_n_0_1_1128 (truncf .bf16 (a0 m c) bitsLt_bf16_f32) (srcCol m c)) bitsLt_bf16_f32)
def wl1T : FVec Ideal S128x256 .bf16 := truncf .bf16 (transpose S128x256 [1, 0] (a1 m c) transposes_S256x128_S128x256_1_0) bitsLt_bf16_f32
def wr1T : FVec Ideal S128x256 .bf16 := truncf .bf16 (transpose S128x256 [1, 0] (a3 m c) transposes_S256x128_S128x256_1_0) bitsLt_bf16_f32
def wl2T : FVec Ideal S256x128 .bf16 := truncf .bf16 (transpose S256x128 [1, 0] (a4 m c) transposes_S128x256_S256x128_1_0) bitsLt_bf16_f32
def wr2T : FVec Ideal S256x128 .bf16 := truncf .bf16 (transpose S256x128 [1, 0] (a6 m c) transposes_S128x256_S256x128_1_0) bitsLt_bf16_f32
def b1row : FVec Ideal S1x256 .f32 := shapeCast S1x256 (a2 m c) shapeCasts_S256_S1x256
def b2row : FVec Ideal S1x128 .f32 := shapeCast S1x128 (a5 m c) shapeCasts_S128_S1x128

/-- The hidden layer of the launched arguments. -/
def hiddenK : S50000x256.Idx → EReal :=
  sage (scaleRows (msg1 m c) (dcol m c)) (a0 m c) (wl1T m c) (wr1T m c) (fun q => b1row m c (ix2 (0 : Fin 1) q))

/-- The kernel's result, as a function of the launched arguments. -/
def outK : S50000x128.Idx → EReal :=
  out2 (agg (N := 50000) (by decide) (dstCol m c) (srcCol m c) (proj (hiddenK m c) (wl2T m c))) (hiddenK m c) (dcol m c) (wr2T m c)
    (fun q => b2row m c (ix2 (0 : Fin 1) q))

/-! ## The first call's entry contents -/

set_option maxHeartbeats 8000000 in
theorem v1_12 : (V1 m ρ c main_v12 : S50000x1.Idx → EReal) = dcol m c := by
  show StableHlo.after hostOps0 (W0 m ρ c) (Proc.devRef .tc main_v12) = _
  after_results_simp <;> rfl

set_option maxHeartbeats 8000000 in
theorem v1_24 : (V1 m ρ c main_v24 : S50000x128.Idx → EReal) = msg1 m c := by
  show StableHlo.after hostOps0 (W0 m ρ c) (Proc.devRef .tc main_v24) = _
  after_results_simp <;> rfl

set_option maxHeartbeats 8000000 in
theorem v1_arg0 : (V1 m ρ c main_arg0 : S50000x128.Idx → EReal) = (a0 m c) := by
  show StableHlo.after hostOps0 (W0 m ρ c) (Proc.devRef .tc main_arg0) = _
  after_results_simp <;> rfl

set_option maxHeartbeats 8000000 in
theorem v1_26 : (V1 m ρ c main_v26 : S128x256.Idx → EReal) = wl1T m c := by
  show StableHlo.after hostOps0 (W0 m ρ c) (Proc.devRef .tc main_v26) = _
  after_results_simp <;> rfl

set_option maxHeartbeats 8000000 in
theorem v1_28 : (V1 m ρ c main_v28 : S128x256.Idx → EReal) = wr1T m c := by
  show StableHlo.after hostOps0 (W0 m ρ c) (Proc.devRef .tc main_v28) = _
  after_results_simp <;> rfl

set_option maxHeartbeats 8000000 in
theorem v1_30 : (V1 m ρ c main_v30 : S256x128.Idx → EReal) = wl2T m c := by
  show StableHlo.after hostOps0 (W0 m ρ c) (Proc.devRef .tc main_v30) = _
  after_results_simp <;> rfl

set_option maxHeartbeats 8000000 in
theorem v1_31 : (V1 m ρ c main_v31 : S1x256.Idx → EReal) = b1row m c := by
  show StableHlo.after hostOps0 (W0 m ρ c) (Proc.devRef .tc main_v31) = _
  after_results_simp <;> rfl

set_option maxHeartbeats 8000000 in
theorem w1_v1 : (W1 m ρ c (Proc.devRef .tc main_v1) : S800000.Idx → BitVec 32) = srcRow m c := by
  show StableHlo.after hostOps0 (W0 m ρ c) (Proc.devRef .tc main_v1) = _
  after_results_simp <;> rfl

set_option maxHeartbeats 8000000 in
theorem w1_v3 : (W1 m ρ c (Proc.devRef .tc main_v3) : S800000.Idx → BitVec 32) = dstRow m c := by
  show StableHlo.after hostOps0 (W0 m ρ c) (Proc.devRef .tc main_v3) = _
  after_results_simp <;> rfl

set_option maxHeartbeats 8000000 in
theorem w1_arg5 : (W1 m ρ c (Proc.devRef .tc main_arg5) : S128.Idx → EReal) = (a5 m c) := by
  show StableHlo.after hostOps0 (W0 m ρ c) (Proc.devRef .tc main_arg5) = _
  after_results_simp <;> rfl

set_option maxHeartbeats 8000000 in
theorem w1_arg6 : (W1 m ρ c (Proc.devRef .tc main_arg6) : S128x256.Idx → EReal) = (a6 m c) := by
  show StableHlo.after hostOps0 (W0 m ρ c) (Proc.devRef .tc main_arg6) = _
  after_results_simp <;> rfl

/-! ## Through the first call, the second stretch and the second call

The three facts about the calls' output arrays are taken as hypotheses here (they are proved where the calls' bodies are
read); `hiddenOf V c` is the hidden layer of whatever arrays `V` the first call finds. -/

/-- The hidden layer of the arrays the first call finds at entry. -/
def hiddenOf (V : (c : Dev nD) → (b : Ref sig .tc) → Buf (Elt Ideal) ((c : Thread nD τ).loc b)) (c : Dev nD) : S50000x256.Idx → EReal :=
  sage (scaleRows (V c main_v24 : S50000x128.Idx → EReal) (V c main_v12 : S50000x1.Idx → EReal))
    (V c main_arg0 : S50000x128.Idx → EReal) (V c main_v26 : S128x256.Idx → EReal) (V c main_v28 : S128x256.Idx → EReal)
    (fun q => (V c main_v31 : S1x256.Idx → EReal) (ix2 (0 : Fin 1) q))

theorem hiddenOf_V1 : hiddenOf (V1 m ρ) c = hiddenK m c := by
  unfold hiddenOf hiddenK
  rw [v1_24, v1_12, v1_arg0, v1_26, v1_28, v1_31]

section Calls

variable (h7 : ∀ (V : (c : Dev nD) → (b : Ref sig .tc) → Buf (Elt Ideal) ((c : Thread nD τ).loc b)) (c : Dev nD),
    ((dat0 (F := Ideal) V c).arrAt 7 cfg0.N : S50000x256.Idx → EReal) = hiddenOf V c)
  (h8 : ∀ (V : (c : Dev nD) → (b : Ref sig .tc) → Buf (Elt Ideal) ((c : Thread nD τ).loc b)) (c : Dev nD),
    ((dat0 (F := Ideal) V c).arrAt 8 cfg0.N : S50000x128.Idx → EReal) = proj (hiddenOf V c) (V c main_v30 : S256x128.Idx → EReal))
  (h5 : ∀ (V : (c : Dev nD) → (b : Ref sig .tc) → Buf (Elt Ideal) ((c : Thread nD τ).loc b)) (c : Dev nD),
    ((dat1 (F := Ideal) V c).arrAt 5 cfg1.N : S50000x128.Idx → EReal)
      = out2 (V c main_v43 : S50000x128.Idx → EReal) (V c main_v32_0 : S50000x256.Idx → EReal) (V c main_v12 : S50000x1.Idx → EReal)
          (V c main_v45 : S256x128.Idx → EReal) (fun q => (V c main_v46 : S1x128.Idx → EReal) (ix2 (0 : Fin 1) q)))

include h7 in
/-- After the first call its first output array holds the hidden layer. -/
theorem w2_32_0 : (W2 m ρ c (Proc.devRef .tc main_v32_0) : S50000x256.Idx → EReal) = hiddenK m c :=
  (W2_arr m ρ c 7).trans ((h7 (V1 m ρ) c).trans (hiddenOf_V1 m ρ c))

include h8 in
/-- After the first call its second output array holds the hidden layer projected through the left weights. -/
theorem w2_32_1 : (W2 m ρ c (Proc.devRef .tc main_v32_1) : S50000x128.Idx → EReal) = proj (hiddenK m c) (wl2T m c) :=
  (W2_arr m ρ c 8).trans ((h8 (V1 m ρ) c).trans (by rw [hiddenOf_V1, v1_30]))

/-- The first call leaves its input arrays as it found them: the per-node factor. -/
theorem w2_12 : (W2 m ρ c (Proc.devRef .tc main_v12) : S50000x1.Idx → EReal) = dcol m c :=
  (W2_arr m ρ c 2).trans ((((dat0 (V1 m ρ) c).arrAt_in 2 rfl _).trans (A_eq0 (V1 m ρ) c 2)).trans (v1_12 m ρ c))

theorem w2_v1 : (W2 m ρ c (Proc.devRef .tc main_v1) : S800000.Idx → BitVec 32) = srcRow m c :=
  (W2_of_ne m ρ c main_v1 (by decide)).trans (w1_v1 m ρ c)
theorem w2_v3 : (W2 m ρ c (Proc.devRef .tc main_v3) : S800000.Idx → BitVec 32) = dstRow m c :=
  (W2_of_ne m ρ c main_v3 (by decide)).trans (w1_v3 m ρ c)
theorem w2_arg5 : (W2 m ρ c (Proc.devRef .tc main_arg5) : S128.Idx → EReal) = a5 m c :=
  (W2_of_ne m ρ c main_arg5 (by decide)).trans (w1_arg5 m ρ c)
theorem w2_arg6 : (W2 m ρ c (Proc.devRef .tc main_arg6) : S128x256.Idx → EReal) = a6 m c :=
  (W2_of_ne m ρ c main_arg6 (by decide)).trans (w1_arg6 m ρ c)

/-! ### The second call's entry contents -/

/-- The second stretch's neighbour sum from the destination words, the source words and the projected rows it reads. -/
def msgOf (dstW srcW : IVec S800000 32) (P : FVec Ideal S50000x128 .bf16) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dstW)
    (extf .f32 (Host.gather gather_S50000x128_S800000x1_S800000x128_1_0_n_n_0_1_1128 P
      (broadcastInDim S800000x1 ![0] bcast_S800000_S800000x1_0
        (select (cmpi .slt srcW (broadcastInDim S800000 ![] bcast_S_S800000 (constantI S_ 32 0#32)))
          (addi srcW (broadcastInDim S800000 ![] bcast_S_S800000 (constantI S_ 32 50000#32))) srcW))) bitsLt_bf16_f32)

/-- The right weights of the second layer from the launched matrix. -/
def wrOf (w : FVec Ideal S128x256 .f32) : FVec Ideal S256x128 .bf16 :=
  truncf .bf16 (transpose S256x128 [1, 0] w transposes_S128x256_S256x128_1_0) bitsLt_bf16_f32
/-- The second bias as a row from the launched vector. -/
def brOf (b : FVec Ideal S128 .f32) : FVec Ideal S1x128 .f32 := shapeCast S1x128 b shapeCasts_S128_S1x128

set_option maxHeartbeats 4000000 in
include h8 in
theorem v3_43 : (V3 m ρ c main_v43 : S50000x128.Idx → EReal)
    = agg (N := 50000) (by decide) (dstCol m c) (srcCol m c) (proj (hiddenK m c) (wl2T m c)) := by
  have e : @Eq (S50000x128.Idx → EReal) (V3 m ρ c main_v43)
      (msgOf (W2 m ρ c (Proc.devRef .tc main_v3)) (W2 m ρ c (Proc.devRef .tc main_v1)) (W2 m ρ c (Proc.devRef .tc main_v32_1))) := by
    show StableHlo.after hostOps1 (W2 m ρ c) (Proc.devRef .tc main_v43) = _
    after_results
    rfl
  refine e.trans ?_
  rw [w2_v3 m ρ c, w2_v1 m ρ c, w2_32_1 m ρ c h8]
  exact hostAgg_eq (N := 50000) (D := 128) (M := 800000) (by decide)
    scatter_S50000x128_S800000x1_S800000x128_1_0_0_1.wf gather_S50000x128_S800000x1_S800000x128_1_0_n_n_0_1_1128.wf
    (dstCol m c) (srcCol m c) (proj (hiddenK m c) (wl2T m c)) _
    (fun i => by rw [Cert.LibHostRead.bid_scalar_apply, constant_apply, Ideal.ofBits_zero_f32])

set_option maxHeartbeats 4000000 in
include h7 in
theorem v3_32_0 : (V3 m ρ c main_v32_0 : S50000x256.Idx → EReal) = hiddenK m c := by
  have e : (V3 m ρ c main_v32_0 : S50000x256.Idx → EReal) = (W2 m ρ c (Proc.devRef .tc main_v32_0) : S50000x256.Idx → EReal) := by
    show StableHlo.after hostOps1 (W2 m ρ c) (Proc.devRef .tc main_v32_0) = _
    after_results
  rw [e, w2_32_0 m ρ c h7]

set_option maxHeartbeats 4000000 in
theorem v3_12 : (V3 m ρ c main_v12 : S50000x1.Idx → EReal) = dcol m c := by
  have e : (V3 m ρ c main_v12 : S50000x1.Idx → EReal) = (W2 m ρ c (Proc.devRef .tc main_v12) : S50000x1.Idx → EReal) := by
    show StableHlo.after hostOps1 (W2 m ρ c) (Proc.devRef .tc main_v12) = _
    after_results
  rw [e, w2_12]

set_option maxHeartbeats 4000000 in
theorem v3_45 : (V3 m ρ c main_v45 : S256x128.Idx → EReal) = wr2T m c := by
  have e : @Eq (S256x128.Idx → EReal) (V3 m ρ c main_v45) (wrOf (W2 m ρ c (Proc.devRef .tc main_arg6))) := by
    show StableHlo.after hostOps1 (W2 m ρ c) (Proc.devRef .tc main_v45) = _
    after_results
    rfl
  refine e.trans ?_
  rw [w2_arg6 m ρ c]
  rfl

set_option maxHeartbeats 4000000 in
theorem v3_46 : (V3 m ρ c main_v46 : S1x128.Idx → EReal) = b2row m c := by
  have e : @Eq (S1x128.Idx → EReal) (V3 m ρ c main_v46) (brOf (W2 m ρ c (Proc.devRef .tc main_arg5))) := by
    show StableHlo.after hostOps1 (W2 m ρ c) (Proc.devRef .tc main_v46) = _
    after_results
    rfl
  refine e.trans ?_
  rw [w2_arg5 m ρ c]
  rfl

include h7 h8 h5 in
/-- The result buffer's last contents: the second layer, projecting first, of the launched arguments. -/
theorem kernel_value : (W4 m ρ c (Proc.devRef .tc main_v47) : S50000x128.Idx → EReal) = outK m c := by
  refine (W4_arr m ρ c 5).trans ((h5 (V3 m ρ) c).trans ?_)
  rw [v3_43 m ρ c h8, v3_32_0 m ρ c h7, v3_12, v3_45, v3_46]
  rfl

end Calls

end Cert.KernelIdeal.KValue

end
-- ==== Proof.RefValue.lean ====
/-
  The reference's result as the second layer aggregating first.

  The reference's run ends with its result at one composed term of the arguments. Cut into named pieces — the
  destination and source columns of the edge list, the per-node factor `1 / max(in-degree, 1)`, the first neighbour sum,
  the hidden layer — that term is the host's two-product rectified layer followed by the host's affine head plus a
  second product; read entry by entry it is `refOut2` of the edge aggregation of the hidden layer.
-/
import proofs.«180857_j84464826843467_2_alg».proof.Proof.Gen.ReferenceIdeal.Run
import proofs.«180857_j84464826843467_2_alg».proof.Proof.LibSageLaw
import proofs.«180857_j84464826843467_2_alg».proof.Proof.LibPlainDot

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.ValueIdx Cert.Sage Cert.LibSageLayer Cert.LibNodes Cert.LibHostRead Cert.Lib.RealValued

variable (m : (ℓ : Loc nD τ sig) → Buf (Elt Ideal) ℓ) (c : Dev nD)

/-- Argument 0, as launched. -/
abbrev a0 : FVec Ideal S50000x128 .f32 := m ((c.tc : Thread nD τ).loc main_arg0)
/-- Argument 1, as launched. -/
abbrev a1 : FVec Ideal S256x128 .f32 := m ((c.tc : Thread nD τ).loc main_arg1)
/-- Argument 2, as launched. -/
abbrev a2 : FVec Ideal S256 .f32 := m ((c.tc : Thread nD τ).loc main_arg2)
/-- Argument 3, as launched. -/
abbrev a3 : FVec Ideal S256x128 .f32 := m ((c.tc : Thread nD τ).loc main_arg3)
/-- Argument 4, as launched. -/
abbrev a4 : FVec Ideal S128x256 .f32 := m ((c.tc : Thread nD τ).loc main_arg4)
/-- Argument 5, as launched. -/
abbrev a5 : FVec Ideal S128 .f32 := m ((c.tc : Thread nD τ).loc main_arg5)
/-- Argument 6, as launched. -/
abbrev a6 : FVec Ideal S128x256 .f32 := m ((c.tc : Thread nD τ).loc main_arg6)
/-- Argument 7, as launched. -/
abbrev a7 : IVec S2x800000 32 := m ((c.tc : Thread nD τ).loc main_arg7)

/-- The edges' source words, as launched. -/
def srcRow : IVec S800000 32 :=
  shapeCast _ (extractStridedSlice S1x800000 ![0, 0] (a7 m c) slices_S2x800000_S1x800000_0_0) shapeCasts_S1x800000_S800000
/-- The edges' destination words. -/
def dstRow : IVec S800000 32 :=
  shapeCast _ (extractStridedSlice S1x800000 ![1, 0] (a7 m c) slices_S2x800000_S1x800000_1_0) shapeCasts_S1x800000_S800000
/-- The destination words as a column. -/
def dstCol : IVec S800000x1 32 := broadcastInDim S800000x1 ![0] bcast_S800000_S800000x1_0 (dstRow m c)
/-- The source words, a negative one wrapped around by the node count, as a column. -/
def srcCol : IVec S800000x1 32 :=
  broadcastInDim S800000x1 ![0] bcast_S800000_S800000x1_0 (select (cmpi .slt (srcRow m c) (broadcastInDim S800000 ![] bcast_S_S800000 (constantI S_ 32 0#32))) (addi (srcRow m c) (broadcastInDim S800000 ![] bcast_S_S800000 (constantI S_ 32 50000#32))) (srcRow m c))
/-- The per-node factor: one over the in-degree joined with one. -/
def dvec : FVec Ideal S50000 .f32 :=
  Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (dstCol m c) (broadcastInDim S800000 ![] bcast_S_S800000 (constant S_ .f32 0x3F800000#32))) (broadcastInDim S50000 ![] bcast_S_S50000 (constant S_ .f32 0x3F800000#32)))
/-- The factor as a column. -/
def dcol : FVec Ideal S50000x1 .f32 := broadcastInDim S50000x1 ![0] bcast_S50000_S50000x1_0 (dvec m c)
/-- The first neighbour sum: the feature rows of the sources, summed at the destinations. -/
def msg1 : FVec Ideal S50000x128 .f32 :=
  Host.scatterAdd scatter_S50000x128_S800000x1_S800000x128_1_0_0_1 (broadcastInDim S50000x128 ![] bcast_S_S50000x128 (constant S_ .f32 0x00000000#32)) (dstCol m c) (Host.gather gather_S50000x128_S800000x1_S800000x128_1_0_n_n_0_1_1128 (a0 m c) (srcCol m c))
/-- The hidden layer, as the host computes it. -/
def hiddenT : FVec Ideal S50000x256 .f32 :=
  maximumf (addf (addf (Host.dotGeneral dot_S50000x128_S128x256_S50000x256_1_0_0_1_n_n none (mulf (msg1 m c) (broadcastInDim S50000x128 ![0, 1] bcast_S50000x1_S50000x128_0_1 (dcol m c))) (transpose S128x256 [1, 0] (a1 m c) transposes_S256x128_S128x256_1_0)) (broadcastInDim S50000x256 ![0, 1] bcast_S1x256_S50000x256_0_1 (broadcastInDim S1x256 ![1] bcast_S256_S1x256_1 (a2 m c)))) (Host.dotGeneral dot_S50000x128_S128x256_S50000x256_1_0_0_1_n_n none (a0 m c) (transpose S128x256 [1, 0] (a3 m c) transposes_S256x128_S128x256_1_0))) (broadcastInDim S50000x256 ![] bcast_S_S50000x256 (constant S_ .f32 0x00000000#32))
/-- The second neighbour sum: the hidden rows of the sources, summed at the destinations. -/
def msg2 : FVec Ideal S50000x256 .f32 :=
  Host.scatterAdd scatter_S50000x256_S800000x1_S800000x256_1_0_0_1 (broadcastInDim S50000x256 ![] bcast_S_S50000x256 (constant S_ .f32 0x00000000#32)) (dstCol m c) (Host.gather gather_S50000x256_S800000x1_S800000x256_1_0_n_n_0_1_1256 (hiddenT m c) (srcCol m c))

set_option maxHeartbeats 4000000 in
/-- The run's result term, cut into the named pieces. -/
theorem res_eq : (res_main_v53 m c : S50000x128.Idx → EReal) =
    addf (addf (Host.dotGeneral dot_S50000x256_S256x128_S50000x128_1_0_0_1_n_n none (mulf (msg2 m c) (broadcastInDim S50000x256 ![0, 1] bcast_S50000x1_S50000x256_0_1 (dcol m c))) (transpose S256x128 [1, 0] (a4 m c) transposes_S128x256_S256x128_1_0)) (broadcastInDim S50000x128 ![0, 1] bcast_S1x128_S50000x128_0_1 (broadcastInDim S1x128 ![1] bcast_S128_S1x128_1 (a5 m c)))) (Host.dotGeneral dot_S50000x256_S256x128_S50000x128_1_0_0_1_n_n none (hiddenT m c) (transpose S256x128 [1, 0] (a6 m c) transposes_S128x256_S256x128_1_0)) := rfl

/-! ## The pieces read entry by entry -/

/-- The hidden layer, entry by entry: LibSageLayer's two-product rectified layer of the scaled first neighbour sum and the
    node features, through the transposed first-layer weights, with the first bias. -/
def hiddenR : S50000x256.Idx → EReal :=
  sage (scaleRows (msg1 m c) (dcol m c)) (a0 m c) (transpose S128x256 [1, 0] (a1 m c) transposes_S256x128_S128x256_1_0)
    (transpose S128x256 [1, 0] (a3 m c) transposes_S256x128_S128x256_1_0) (fun q => a2 m c (ix1 q))

/-- A matrix times a column repeated along the rows is the matrix with its rows scaled. -/
theorem mulf_bid_col {N D : ℕ} (A : FVec Ideal ⟨2, ![N, D]⟩ .f32) (dc : FVec Ideal ⟨2, ![N, 1]⟩ .f32)
    (h : (⟨2, ![N, 1]⟩ : Shape).BroadcastsInDim ⟨2, ![N, D]⟩ ![0, 1]) :
    mulf A (broadcastInDim ⟨2, ![N, D]⟩ ![0, 1] h dc) = scaleRows A dc := by
  funext i
  obtain ⟨p, k, rfl⟩ : ∃ (p : Fin N) (k : Fin D), i = ix2 p k := ⟨i 0, i 1, eq_ix2 i⟩
  rw [mulf_apply, bid_a1_ab_apply, scaleRows_ix2]

/-- The host's hidden layer is `hiddenR`. -/
theorem hiddenT_eq : hiddenT m c = hiddenR m c := by
  unfold hiddenT hiddenR
  rw [mulf_bid_col]
  exact host_sage_eq _ (Cert.LibPlainDot.plainDot_plain 50000 128 256) _ _ _ _ _ _ _ _

/-- The second neighbour sum is the edge aggregation of the hidden layer. -/
theorem msg2_eq : msg2 m c = agg (N := 50000) (by decide) (dstCol m c) (srcCol m c) (hiddenR m c) := by
  unfold msg2
  rw [hiddenT_eq]
  exact hostAgg_eq (N := 50000) (D := 256) (M := 800000) (by decide)
    scatter_S50000x256_S800000x1_S800000x256_1_0_0_1.wf gather_S50000x256_S800000x1_S800000x256_1_0_n_n_0_1_1256.wf
    (dstCol m c) (srcCol m c) (hiddenR m c) _
    (fun i => by rw [bid_scalar_apply, constant_apply, Ideal.ofBits_zero_f32])

/-- The reference's result: the second layer, aggregating first, of the launched arguments. -/
theorem ref_value : (res_main_v53 m c : S50000x128.Idx → EReal)
    = refOut2 (agg (N := 50000) (by decide) (dstCol m c) (srcCol m c) (hiddenR m c)) (hiddenR m c) (dcol m c)
        (transpose S256x128 [1, 0] (a4 m c) transposes_S128x256_S256x128_1_0)
        (transpose S256x128 [1, 0] (a6 m c) transposes_S128x256_S256x128_1_0) (fun q => a5 m c (ix1 q)) := by
  rw [res_eq, mulf_bid_col, msg2_eq, hiddenT_eq]
  funext i
  obtain ⟨n, j, rfl⟩ : ∃ (n : Fin 50000) (j : Fin 128), i = ix2 n j := ⟨i 0, i 1, eq_ix2 i⟩
  rw [addf_apply, refOut2_ix2]
  unfold refOut2At
  exact congrArg₂ (fun x y : EReal => x + y)
    (host_lin_apply _ (Cert.LibPlainDot.plainDot_plain 50000 256 128) _ _ _ _ _ n j)
    (Cert.LibPlainDot.hdot_apply _ (Cert.LibPlainDot.plainDot_plain 50000 256 128) _ _ n j)

end Cert.ReferenceIdeal.RefValue

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«180857_j84464826843467_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition read back: every float input is real-valued.

  The precondition is the conjunction, by `and` on one-bit words, of seven tests `all(|x| < +inf)`, one per float input.
  A conjunction that is 1 has every conjunct 1, and a test that is 1 says every entry of its input is a real number
  (the absolute value of an extended real is below +inf exactly for the reals).
-/
import proofs.«180857_j84464826843467_2_alg».proof.Pre_finite_inputs
import proofs.«180857_j84464826843467_2_alg».proof.Proof.Gen.Pre_finite_inputs
import proofs.«180857_j84464826843467_2_alg».proof.Proof.LibFiniteTest

noncomputable section

namespace Cert.Finite

open Idealize.ShloMosaic Cert.Lib.RealValued Cert.Lib.FiniteTest Cert.Pre_finite_inputs

variable [Cert.Pre_finite_inputs.Facts]

/-- The `and` of two arrays of one-bit words is taken entry by entry: where it is 1, both operands are 1. -/
private theorem andi_apply_eq_one {s : Shape} (x y : IVec s 1) (i : s.Idx) (h : andi x y i = 1#1) :
    x i = 1#1 ∧ y i = 1#1 :=
  IntOp.andi_eq_one.1 h

/-- If the printed precondition evaluates to 1 at the ideal reading, each of the seven float inputs is real-valued. -/
theorem allReal_of_pre (a0 : FVec Ideal S50000x128 .f32) (a1 : FVec Ideal S256x128 .f32) (a2 : FVec Ideal S256 .f32)
    (a3 : FVec Ideal S256x128 .f32) (a4 : FVec Ideal S128x256 .f32) (a5 : FVec Ideal S128 .f32) (a6 : FVec Ideal S128x256 .f32)
    (a7 : IVec S2x800000 32)
    (h : Cert.Pre_finite_inputs.fn (F := Ideal) a0 a1 a2 a3 a4 a5 a6 a7 = (fun _ => 1#1)) :
    AllReal a0 ∧ AllReal a1 ∧ AllReal a2 ∧ AllReal a3 ∧ AllReal a4 ∧ AllReal a5 ∧ AllReal a6 := by
  -- the result shape has rank 0, hence exactly one index
  haveI : Subsingleton S_.Idx := ⟨fun a b => funext fun d => d.elim0⟩
  have j0 : S_.Idx := fun a => a.elim0
  have h0 := congrFun h j0
  dsimp only [Cert.Pre_finite_inputs.fn, Cert.Pre_finite_inputs.fn_part1] at h0
  -- six conjunctions, outermost first: ((((((t0 ∧ t1) ∧ t2) ∧ t3) ∧ t4) ∧ t5) ∧ t6)
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨allReal_of_all a0 _ _ _ _ _ j0 e0, allReal_of_all a1 _ _ _ _ _ j0 e1,
    allReal_of_all a2 _ _ _ _ _ j0 e2, allReal_of_all a3 _ _ _ _ _ j0 e3,
    allReal_of_all a4 _ _ _ _ _ j0 e4, allReal_of_all a5 _ _ _ _ _ j0 e5,
    allReal_of_all a6 _ _ _ _ _ j0 e6⟩

end Cert.Finite

end
-- ==== Proof.LibSageReal.lean ====
/-
  Realness of the pieces of the two layers.

  The law that joins the two arrangements of the second layer needs real-valued data. Three facts carry realness from
  the inputs to the hidden layer: one over a value joined with one is a real number whatever the value (the join is at
  least one, so its inverse lies between zero and one; the inverse of +inf is zero); a matrix with its rows scaled by a
  real column stays real; and the two-product rectified layer of real operands is real (finite sums of products, a bias,
  a maximum with zero).
-/
import proofs.«180857_j84464826843467_2_alg».proof.Proof.LibSageSpec
import proofs.«180857_j84464826843467_2_alg».proof.Proof.LibRealValued

noncomputable section

namespace Cert.Sage

open Idealize.ShloMosaic Idealize.ShloMosaic.ValueIdx Cert.LibSageLayer Cert.Lib.RealValued

/-- The f32 pattern of one denotes the real number one. -/
theorem ofBits_one_f32 : Ideal.ofBits .f32 0x3F800000#32 = (1 : EReal) := by
  simp [Ideal.ofBits, Ideal.ieee, -EReal.coe_mul]; norm_num

/-- One over `max d 1` is a real number, for every extended real `d`. -/
theorem isReal_div_one_max (d : EReal) :
    IsReal (Ideal.div (Ideal.ofBits .f32 0x3F800000#32) (max d (Ideal.ofBits .f32 0x3F800000#32))) := by
  rw [ofBits_one_f32]
  have h1 : (1 : EReal) ≤ max d 1 := le_max_right d 1
  generalize max d 1 = y at h1 ⊢
  -- y ≥ 1 > 0, so the quotient is the product 1 · y⁻¹ = y⁻¹
  have hy0 : y ≠ 0 := (lt_of_lt_of_le zero_lt_one h1).ne'
  rw [Ideal.div, if_neg hy0, one_mul]
  induction y using EReal.rec with
  | bot => exact absurd (le_bot_iff.1 h1) (EReal.coe_ne_bot 1)
  | coe r => exact ⟨r⁻¹, (EReal.coe_inv r).symm⟩
  | top => rw [EReal.inv_top]; exact IsReal.zero

variable {M K N : ℕ}

/-- Rows of a real-valued matrix scaled by a real-valued column. -/
theorem allReal_scaleRows {A : (⟨2, ![M, K]⟩ : Shape).Idx → EReal} {dc : (⟨2, ![M, 1]⟩ : Shape).Idx → EReal}
    (hA : AllReal A) (hdc : AllReal dc) : AllReal (scaleRows A dc) := by
  intro i
  show IsReal (A i * dc _)
  exact (hA i).mul (hdc _)

/-- The two-product rectified layer of real-valued operands is real-valued. -/
theorem allReal_sage {A X : (⟨2, ![M, K]⟩ : Shape).Idx → EReal} {Wl Wr : (⟨2, ![K, N]⟩ : Shape).Idx → EReal} {b : Fin N → EReal}
    (hA : AllReal A) (hX : AllReal X) (hWl : AllReal Wl) (hWr : AllReal Wr) (hb : ∀ q, IsReal (b q)) :
    AllReal (sage A X Wl Wr b) := by
  intro i
  unfold sage sageAt
  exact IsReal.max (IsReal.add (IsReal.add (IsReal.sum _ _ fun k _ => (hA _).mul (hWl _))
    (IsReal.sum _ _ fun k _ => (hX _).mul (hWr _))) (hb _)) IsReal.zero

end Cert.Sage

end
-- ==== Proof.Bridge.lean ====
/-
  The kernel's value and the reference's value are one function of the arguments.

  Both programs build the same destination and source columns, the same per-node factor and the same first neighbour sum
  from the edge list and the features (the kernel narrows the gathered rows to bf16 and widens them again, which changes
  nothing on the extended reals; it casts the factor to a column where the reference places it as one, which reads the
  same entry). So both have the same hidden layer `H`. For the second layer the kernel projects `H` through the left
  weights before summing over the edges and the reference sums first: equal because `H`, the weights and the factor are
  real-valued (`layer2_law`), which is where the precondition — every float input finite — is used.
-/
import proofs.«180857_j84464826843467_2_alg».proof.Proof.KValue
import proofs.«180857_j84464826843467_2_alg».proof.Proof.RefValue
import proofs.«180857_j84464826843467_2_alg».proof.Proof.LibSageReal
import proofs.«180857_j84464826843467_2_alg».proof.Proof.LibKeepdims

set_option maxRecDepth 16384

noncomputable section

namespace Cert.Bridge

open Idealize.ShloMosaic Idealize.ShloMosaic.TcCoe Idealize.SL.Sem Idealize.ShloMosaic.ValueIdx
open Cert.Sage Cert.LibSageLayer Cert.LibNodes Cert.LibHostRead Cert.LibKeepdims Cert.Lib.RealValued

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the eight arguments (on core `c`). -/
structure Agree : Prop where
  e0 : Cert.ReferenceIdeal.RefValue.a0 m' c = Cert.KernelIdeal.KValue.a0 m c
  e1 : Cert.ReferenceIdeal.RefValue.a1 m' c = Cert.KernelIdeal.KValue.a1 m c
  e2 : Cert.ReferenceIdeal.RefValue.a2 m' c = Cert.KernelIdeal.KValue.a2 m c
  e3 : Cert.ReferenceIdeal.RefValue.a3 m' c = Cert.KernelIdeal.KValue.a3 m c
  e4 : Cert.ReferenceIdeal.RefValue.a4 m' c = Cert.KernelIdeal.KValue.a4 m c
  e5 : Cert.ReferenceIdeal.RefValue.a5 m' c = Cert.KernelIdeal.KValue.a5 m c
  e6 : Cert.ReferenceIdeal.RefValue.a6 m' c = Cert.KernelIdeal.KValue.a6 m c
  e7 : Cert.ReferenceIdeal.RefValue.a7 m' c = Cert.KernelIdeal.KValue.a7 m c

/-- The seven float arguments are real-valued. -/
structure RealArgs : Prop where
  r0 : AllReal (Cert.KernelIdeal.KValue.a0 m c)
  r1 : AllReal (Cert.KernelIdeal.KValue.a1 m c)
  r2 : AllReal (Cert.KernelIdeal.KValue.a2 m c)
  r3 : AllReal (Cert.KernelIdeal.KValue.a3 m c)
  r4 : AllReal (Cert.KernelIdeal.KValue.a4 m c)
  r5 : AllReal (Cert.KernelIdeal.KValue.a5 m c)
  r6 : AllReal (Cert.KernelIdeal.KValue.a6 m c)

variable {m m' c}

section Pieces
variable (h : Agree m m' c)
include h

theorem e_dst : Cert.ReferenceIdeal.RefValue.dstCol m' c = Cert.KernelIdeal.KValue.dstCol m c := by
  unfold Cert.ReferenceIdeal.RefValue.dstCol Cert.ReferenceIdeal.RefValue.dstRow
  rw [h.e7]
  rfl

theorem e_src : Cert.ReferenceIdeal.RefValue.srcCol m' c = Cert.KernelIdeal.KValue.srcCol m c := by
  unfold Cert.ReferenceIdeal.RefValue.srcCol Cert.ReferenceIdeal.RefValue.srcRow
  rw [h.e7]
  rfl

theorem e_dvec : Cert.ReferenceIdeal.RefValue.dvec m' c = Cert.KernelIdeal.KValue.dvec m c := by
  unfold Cert.ReferenceIdeal.RefValue.dvec
  rw [e_dst h]
  rfl

/-- The factor as a column: placed as the one column, or cast to it, entry `(n, 0)` is the factor of node `n`. -/
theorem e_dcol : Cert.ReferenceIdeal.RefValue.dcol m' c = Cert.KernelIdeal.KValue.dcol m c := by
  unfold Cert.ReferenceIdeal.RefValue.dcol Cert.KernelIdeal.KValue.dcol
  rw [e_dvec h]
  funext i
  obtain ⟨n, u, rfl⟩ : ∃ (n : Fin 50000) (u : Fin 1), i = ix2 n u := ⟨i 0, i 1, eq_ix2 i⟩
  rw [bid_a_a1_apply, shapeCast_a_a1_apply]

/-- The first neighbour sum: narrowing the features to bf16 before the gather and widening after it changes nothing. -/
theorem e_msg1 : Cert.ReferenceIdeal.RefValue.msg1 m' c = Cert.KernelIdeal.KValue.msg1 m c := by
  unfold Cert.ReferenceIdeal.RefValue.msg1
  rw [e_dst h, e_src h, h.e0]
  rfl

theorem e_wl1 : transpose Cert.ReferenceIdeal.S128x256 [1, 0] (Cert.ReferenceIdeal.RefValue.a1 m' c) Cert.ReferenceIdeal.Facts₀.transposes_S256x128_S128x256_1_0
    = Cert.KernelIdeal.KValue.wl1T m c := by
  rw [h.e1]; rfl
theorem e_wr1 : transpose Cert.ReferenceIdeal.S128x256 [1, 0] (Cert.ReferenceIdeal.RefValue.a3 m' c) Cert.ReferenceIdeal.Facts₀.transposes_S256x128_S128x256_1_0
    = Cert.KernelIdeal.KValue.wr1T m c := by
  rw [h.e3]; rfl
theorem e_wl2 : transpose Cert.ReferenceIdeal.S256x128 [1, 0] (Cert.ReferenceIdeal.RefValue.a4 m' c) Cert.ReferenceIdeal.Facts₀.transposes_S128x256_S256x128_1_0
    = Cert.KernelIdeal.KValue.wl2T m c := by
  rw [h.e4]; rfl
theorem e_wr2 : transpose Cert.ReferenceIdeal.S256x128 [1, 0] (Cert.ReferenceIdeal.RefValue.a6 m' c) Cert.ReferenceIdeal.Facts₀.transposes_S128x256_S256x128_1_0
    = Cert.KernelIdeal.KValue.wr2T m c := by
  rw [h.e6]; rfl

/-- The first bias: entry `q` of the vector, or entry `(0, q)` of the vector cast to a row. -/
theorem e_b1 : (fun q : Fin 256 => Cert.ReferenceIdeal.RefValue.a2 m' c (ix1 q))
    = (fun q : Fin 256 => Cert.KernelIdeal.KValue.b1row m c (ix2 (0 : Fin 1) q)) := by
  funext q
  unfold Cert.KernelIdeal.KValue.b1row
  rw [h.e2, shapeCast_a_1a_apply]
theorem e_b2 : (fun q : Fin 128 => Cert.ReferenceIdeal.RefValue.a5 m' c (ix1 q))
    = (fun q : Fin 128 => Cert.KernelIdeal.KValue.b2row m c (ix2 (0 : Fin 1) q)) := by
  funext q
  unfold Cert.KernelIdeal.KValue.b2row
  rw [h.e5, shapeCast_a_1a_apply]

/-- One hidden layer. -/
theorem e_hidden : Cert.ReferenceIdeal.RefValue.hiddenR m' c = Cert.KernelIdeal.KValue.hiddenK m c := by
  unfold Cert.ReferenceIdeal.RefValue.hiddenR Cert.KernelIdeal.KValue.hiddenK
  rw [e_msg1 h, e_dcol h, h.e0, e_wl1 h, e_wr1 h, e_b1 h]

end Pieces

/-! ## Realness -/

section Realness
variable (hr : RealArgs m c)
include hr

theorem real_zero_const {s : Shape} (hb : (⟨0, ![]⟩ : Shape).BroadcastsInDim s ![]) :
    AllReal (broadcastInDim s ![] hb (constant (F := Ideal) ⟨0, ![]⟩ .f32 0x00000000#32)) := fun i => by
  rw [bid_scalar_apply, constant_apply, Ideal.ofBits_zero_f32]; exact IsReal.zero

theorem real_dvec : AllReal (Cert.KernelIdeal.KValue.dvec m c) := by
  unfold Cert.KernelIdeal.KValue.dvec
  intro i
  rw [show ∀ (a b : FVec Ideal Cert.KernelIdeal.S50000 .f32), Host.divf a b i = Ideal.div (a i) (b i) from fun _ _ => rfl,
    maximumf_apply, bid_scalar_apply, constant_apply]
  exact isReal_div_one_max _

theorem real_dcol : AllReal (Cert.KernelIdeal.KValue.dcol m c) := fun i => real_dvec hr _

theorem real_msg1 : AllReal (Cert.KernelIdeal.KValue.msg1 m c) := by
  unfold Cert.KernelIdeal.KValue.msg1
  refine AllReal.scatterAdd _ (real_zero_const hr _) _ ?_
  exact fun i => hr.r0 _

theorem real_hidden : AllReal (Cert.KernelIdeal.KValue.hiddenK m c) := by
  unfold Cert.KernelIdeal.KValue.hiddenK
  refine allReal_sage (allReal_scaleRows (real_msg1 hr) (real_dcol hr)) hr.r0 (fun i => hr.r1 _) (fun i => hr.r3 _) (fun q => hr.r2 _)

theorem real_wl2 : AllReal (Cert.KernelIdeal.KValue.wl2T m c) := fun i => hr.r4 _

end Realness

/-- THE BRIDGE: the kernel's result is the reference's result, read over the reference's own pieces. -/
theorem bridge (h : Agree m m' c) (hr : RealArgs m c) :
    Cert.KernelIdeal.KValue.outK m c
      = refOut2 (agg (N := 50000) (by decide) (Cert.ReferenceIdeal.RefValue.dstCol m' c) (Cert.ReferenceIdeal.RefValue.srcCol m' c) (Cert.ReferenceIdeal.RefValue.hiddenR m' c))
          (Cert.ReferenceIdeal.RefValue.hiddenR m' c) (Cert.ReferenceIdeal.RefValue.dcol m' c)
          (transpose Cert.ReferenceIdeal.S256x128 [1, 0] (Cert.ReferenceIdeal.RefValue.a4 m' c) Cert.ReferenceIdeal.Facts₀.transposes_S128x256_S256x128_1_0)
          (transpose Cert.ReferenceIdeal.S256x128 [1, 0] (Cert.ReferenceIdeal.RefValue.a6 m' c) Cert.ReferenceIdeal.Facts₀.transposes_S128x256_S256x128_1_0)
          (fun q => Cert.ReferenceIdeal.RefValue.a5 m' c (ix1 q)) := by
  rw [e_dst h, e_src h, e_hidden h, e_dcol h, e_wl2 h, e_wr2 h, e_b2 h]
  unfold Cert.KernelIdeal.KValue.outK
  exact layer2_law _ _ _ _ _ _ _ _ (real_hidden hr) (real_dcol hr) (real_wl2 hr)

end Cert.Bridge

end
-- ==== Proof.lean ====
/-
  Two mean-aggregating graph layers on a TPU against their jnp reference: the certificate's five claims.

  The kernel computes `relu(mean(x) · Wl1ᵀ + x · Wr1ᵀ + b1)` in a first call tiled over 2000-row blocks, projects the
  hidden rows through `Wl2ᵀ` in the same call, gathers and sums the PROJECTED rows over the edges, and finishes
  `(that sum scaled by 1 / max(deg, 1) + b2) + H · Wr2ᵀ` in a second call. The reference sums the hidden rows over the
  edges first and projects the scaled sum afterwards. On the extended reals the two agree whenever the inputs are finite:
  every intermediate value is then a real number, and moving the projection and the per-node factor across the finite sum
  over the edges is the distributive law of the reals.

  * The three frames: the kernel's two (word-level and idealized) are the generated launch of the four segments; the
    reference's is its generated run with the result dropped.
  * `preserves`: the ideal pass rewrote nothing, the claim is `True`.
  * `algebraic`: the kernel's run with its result named (KRun), that result read back through both calls and both
    stretches of host operations as `out2 (agg dst src (proj H Wl2)) H dc Wr2 b2` (Region0, Region1, KValue), the reference's
    result as `refOut2 (agg dst src H) H dc Wl2 Wr2 b2` (RefValue), and the two equal under the precondition (Finite, LibSageReal,
    LibSageLaw, Bridge).
-/
import proofs.«180857_j84464826843467_2_alg».proof.Defs
import proofs.«180857_j84464826843467_2_alg».proof.Proof.Gen.Kernel
import proofs.«180857_j84464826843467_2_alg».proof.Proof.Gen.Kernel.Skeleton
import proofs.«180857_j84464826843467_2_alg».proof.Proof.Gen.Kernel.Launch
import proofs.«180857_j84464826843467_2_alg».proof.Proof.Gen.Kernel.Points
import proofs.«180857_j84464826843467_2_alg».proof.Proof.Gen.Kernel.Frame
import proofs.«180857_j84464826843467_2_alg».proof.Proof.Gen.KernelIdeal
import proofs.«180857_j84464826843467_2_alg».proof.Proof.Gen.KernelIdeal.Skeleton
import proofs.«180857_j84464826843467_2_alg».proof.Proof.Gen.KernelIdeal.Launch
import proofs.«180857_j84464826843467_2_alg».proof.Proof.Gen.KernelIdeal.Points
import proofs.«180857_j84464826843467_2_alg».proof.Proof.Gen.KernelIdeal.Frame
import proofs.«180857_j84464826843467_2_alg».proof.Proof.Gen.ReferenceIdeal
import proofs.«180857_j84464826843467_2_alg».proof.Proof.Gen.Pre_finite_inputs
import proofs.«180857_j84464826843467_2_alg».proof.Proof.Gen.ReferenceIdeal.Run
import proofs.«180857_j84464826843467_2_alg».proof.Proof.KRun
import proofs.«180857_j84464826843467_2_alg».proof.Proof.Region0
import proofs.«180857_j84464826843467_2_alg».proof.Proof.Region1
import proofs.«180857_j84464826843467_2_alg».proof.Proof.KValue
import proofs.«180857_j84464826843467_2_alg».proof.Proof.RefValue
import proofs.«180857_j84464826843467_2_alg».proof.Proof.Finite
import proofs.«180857_j84464826843467_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and keeps its arguments: the generated launch. -/
theorem frame_kernel : Cert.frame_Kernel := fun m ρ _ => Cert.Kernel.Gen.frame m ρ

/-- The idealized kernel runs and keeps its arguments: the generated launch at the ideal reading. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Under the precondition each float argument of the kernel is real-valued. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.RealArgs m c :=
  let p := Cert.Finite.allReal_of_pre _ _ _ _ _ _ _ _ (hpre c)
  ⟨p.1, p.2.1, p.2.2.1, p.2.2.2.1, p.2.2.2.2.1, p.2.2.2.2.2.1, p.2.2.2.2.2.2⟩

/-- Both programs end, from memories that agree on the arguments, with one result: the second layer of the launched
    arguments, which the kernel reaches projecting first and the reference aggregating first. -/
theorem algebraic : Cert.algebraic_KernelIdeal_ReferenceIdeal := by
  intro m ρ m' ρ' hpre hagree
  refine ⟨fun c => Cert.KernelIdeal.KValue.outK m c, ?_, ?_⟩
  · exact (θ_run Cert.KernelIdeal.defs _ _).mono
      (fun r h c => ⟨(h c).1.trans (Cert.KernelIdeal.KValue.kernel_value m ρ c
          Cert.KernelIdeal.Region0.arr7 Cert.KernelIdeal.Region0.arr8 Cert.KernelIdeal.Region1.arr5), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    have hag : Cert.Bridge.Agree m m' c :=
      ⟨(hagree c).1, (hagree c).2.1, (hagree c).2.2.1, (hagree c).2.2.2.1, (hagree c).2.2.2.2.1, (hagree c).2.2.2.2.2.1,
        (hagree c).2.2.2.2.2.2.1, (hagree c).2.2.2.2.2.2.2⟩
    exact (Cert.ReferenceIdeal.RefValue.ref_value m' c).trans (Cert.Bridge.bridge hag (realArgs m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
